-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x40 : S_.BroadcastsInDim S3x64x40 (![] : Fin 0 → Fin S3x64x40.rank)
  reducesTo_S3x64x40_S_d0_1_2 : S3x64x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S3x64x40 1) : IVec S_ 1 :=
  let main_c_5 : IVec S_ 1 := constantI S_ 1 1#1
  let main_v17 : IVec S_ 1 := (fun x v => Host.reduce IntOp.andi x v reducesTo_S3x64x40_S_d0_1_2 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S3x128x64 .f32) (main_arg3 : FVec F S64 .f32) (main_arg4 : FVec F S3x64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x64 .f32 := Host.absf main_arg2
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x40 .f32 := Host.absf main_arg4
  let main_cst_4 : FVec F S_ .f32 := constant S_ .f32 0x7F800000#32
  let main_v15 : FVec F S3x64x40 .f32 := broadcastInDim S3x64x40 ![] bcast_S_S3x64x40 main_cst_4
  let main_v16 : IVec S3x64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1x128x64 : Shape := ⟨3, ![1, 128, 64]⟩
abbrev S128x64 : Shape := ⟨2, ![128, 64]⟩
abbrev S1x64 : Shape := ⟨2, ![1, 64]⟩
abbrev S1600000x64 : Shape := ⟨2, ![1600000, 64]⟩
abbrev S100000x40 : Shape := ⟨2, ![100000, 40]⟩
abbrev S5000x40 : Shape := ⟨2, ![5000, 40]⟩
abbrev S1x64x40 : Shape := ⟨3, ![1, 64, 40]⟩
abbrev S64x40 : Shape := ⟨2, ![64, 40]⟩
abbrev S1x40 : Shape := ⟨2, ![1, 40]⟩
abbrev S5000 : Shape := ⟨1, ![5000]⟩
abbrev S5000x1 : Shape := ⟨2, ![5000, 1]⟩

abbrev nBuf : Space → Nat
  | .hbm => 125
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x64, .f32⟩
  | .hbm, ⟨3, _⟩ => ⟨S64, .f32⟩
  | .hbm, ⟨4, _⟩ => ⟨S3x64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x64, .f32⟩
  | .hbm, ⟨88, _⟩ => ⟨S1600000x1, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1600000x1, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .f32⟩
  | .hbm, ⟨114, _⟩ => ⟨S1600000x64, .f32⟩
  | .hbm, ⟨115, _⟩ => ⟨S1600000x64, .f32⟩
  | .hbm, ⟨116, _⟩ => ⟨S_, .f32⟩
  | .hbm, ⟨117, _⟩ => ⟨S100000x64, .f32⟩
  | .hbm, ⟨118, _⟩ => ⟨S1600000x1, .i32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | .hbm, ⟨123, _⟩ => ⟨S100000x64, .f32⟩
  | .hbm, ⟨124, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S3x64x40_S1x64x40_0_0_0 : ∀ a, (![0, 0, 0] : Fin 3 → Nat) a + S1x64x40.size a ≤ S3x64x40.size a
  h_S1x64x40 : 0 < S1x64x40.numel
  shapeCasts_S1x64x40_S64x40 : S1x64x40.ShapeCasts S64x40
  inb_S3x64x40_S1x64x40_1_0_0 : ∀ a, (![1, 0, 0] : Fin 3 → Nat) a + S1x64x40.size a ≤ S3x64x40.size a
  inb_S3x64x40_S1x64x40_2_0_0 : ∀ a, (![2, 0, 0] : Fin 3 → Nat) a + S1x64x40.size a ≤ S3x64x40.size a
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x64.size a ≤ S3x128x64.size a
  hwx0_3 : ∀ i : grid0.Coords, EltTy.bits .f32 = 32 ∨ (Rect.block (s := S3x128x64) S3x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x40.size a ≤ S3x64x40.size a
  hwx1_3 : ∀ i : grid1.Coords, EltTy.bits .f32 = 32 ∨ (Rect.block (s := S3x64x40) S3x64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v60) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v89) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v90) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x64 : Shape := ⟨3, ![1, 128, 64]⟩
abbrev S128x64 : Shape := ⟨2, ![128, 64]⟩
abbrev S100000x64 : Shape := ⟨2, ![100000, 64]⟩
abbrev S1600000x128 : Shape := ⟨2, ![1600000, 128]⟩
abbrev S1x64 : Shape := ⟨2, ![1, 64]⟩
abbrev S1x64x40 : Shape := ⟨3, ![1, 64, 40]⟩
abbrev S64x40 : Shape := ⟨2, ![64, 40]⟩
abbrev S100000x40 : Shape := ⟨2, ![100000, 40]⟩
abbrev S1600000x64 : Shape := ⟨2, ![1600000, 64]⟩
abbrev S1x40 : Shape := ⟨2, ![1, 40]⟩
abbrev S100000x1 : Shape := ⟨2, ![100000, 1]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S3x128x64, .f32⟩
  | 3 => ⟨S64, .f32⟩
  | 4 => ⟨S3x64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1x128x64, .f32⟩
  | 52 => ⟨S128x64, .f32⟩
  | 53 => ⟨S100000x64, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128x64, .f32⟩
  | 71 => ⟨S128x64, .f32⟩
  | 72 => ⟨S100000x64, .f32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x128x64, .f32⟩
  | 95 => ⟨S128x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1x64x40, .f32⟩
  | 105 => ⟨S64x40, .f32⟩
  | 106 => ⟨S100000x40, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x64, .f32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S1x64x40, .f32⟩
  | 124 => ⟨S64x40, .f32⟩
  | 125 => ⟨S100000x40, .f32⟩
  | 126 => ⟨S100000x40, .f32⟩
  | 127 => ⟨S1600000x1, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S1x64x40, .f32⟩
  | 20 => ⟨S64x40, .f32⟩
  | 21 => ⟨S100000x40, .f32⟩
  | 22 => ⟨S100000x40, .f32⟩
  | 23 => ⟨S1x40, .f32⟩
  | 24 => ⟨S100000x40, .f32⟩
  | 25 => ⟨S100000x40, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x40, .f32⟩
  | 33 => ⟨S100000x40, .f32⟩
  | 34 => ⟨S100000x40, .f32⟩
  | 35 => ⟨S_, .f32⟩
  | 36 => ⟨S100000, .f32⟩
  | 37 => ⟨S100000x1, .f32⟩
  | 38 => ⟨S100000x1, .f32⟩
  | 39 => ⟨S100000x40, .f32⟩
  | 40 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_cst : Ref sig .tc := ⟨.hbm, 101, rfl⟩
abbrev main_call2_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call3_cst : Ref sig .tc := ⟨.hbm, 154, rfl⟩
abbrev main_call3_v0 : Ref sig .tc := ⟨.hbm, 155, rfl⟩
abbrev main_call3_cst_0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_cst_1 : Ref sig .tc := ⟨.hbm, 163, rfl⟩
abbrev main_call3_v7 : Ref sig .tc := ⟨.hbm, 164, rfl⟩
abbrev main_call3_v8 : Ref sig .tc := ⟨.hbm, 165, rfl⟩
abbrev main_call3_v9 : Ref sig .tc := ⟨.hbm, 166, rfl⟩
abbrev main_call3_v10 : Ref sig .tc := ⟨.hbm, 167, rfl⟩
abbrev main_v118 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x64_S1x128x64_0_0_0 : S3x128x64.Slices ![0, 0, 0] S1x128x64
  shapeCasts_S1x128x64_S128x64 : S1x128x64.ShapeCasts S128x64
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x40_S1x64x40_0_0_0 : S3x64x40.Slices ![0, 0, 0] S1x64x40
  shapeCasts_S1x64x40_S64x40 : S1x64x40.ShapeCasts S64x40
  bcast_S1600000x1_S1600000x64_0_1 : S1600000x1.BroadcastsInDim S1600000x64 (![0, 1] : Fin 2 → Fin S1600000x64.rank)
  slices_S3x64x40_S1x64x40_1_0_0 : S3x64x40.Slices ![1, 0, 0] S1x64x40
  slices_S3x64x40_S1x64x40_2_0_0 : S3x64x40.Slices ![2, 0, 0] S1x64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x64_S64x40_S100000x40_1_0_0_1_n_n_wf : DotDims.WF S100000x64 S64x40 S100000x40 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibAfterSplit.lean ====
/-
  The contents after a line of host operations, split at a position.

  `StableHlo.after l V` folds the operations' results over the contents `V`, first operation first. Folding a
  concatenation is folding the second part over what the first part leaves; so a line can be read in stretches: the first
  `k` operations, then the rest over their outcome. For any signature and any values.
-/
import Idealize.ShloMosaic.Lib.StableHlo.Run

noncomputable section

namespace Cert.AfterSplit

open Idealize.ShloMosaic Idealize.ShloMosaic.StableHlo

variable {τ : Topo} {sig : RefSig} {Val : EltTy → Type}

/-- Two lines one after the other: the second over what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line read as its first `k` operations and then the rest. -/
theorem after_take_drop (l : List (HloOp τ sig Val)) (k : Nat) (V : Valuation τ sig Val) :
    after l V = after (l.drop k) (after (l.take k) V) := by
  rw [← after_append, List.take_append_drop]

end Cert.AfterSplit

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.RefStages.lean ====
/-
  The reference's 163 host operations, read in six stretches.

  The line is cut where jax outlined a function: operations 0–16 (the edge list's rows, the degree count and its two
  comparisons); 17–24 (two `where`s around a reciprocal square root: `d^(−1/2)`, zero where no edge arrives); 25–94 (the
  edges' coefficients, the two propagated forms of the features, the three products of the first layer and its bias);
  95–97 (`relu`); 98–147 (the same for the hidden features: the second layer before its softmax); 148–162
  (`log_softmax`). Each stretch is read over ARBITRARY incoming contents `V`: the buffers it writes hold its operations'
  functions of what it reads — which is how the reference's stages `val_main_v…` are defined, one per operation — and the
  buffers it does not write keep their contents.
-/
import proofs.«113783_j2903397892894_1_alg».proof.Proof.RefReadP
import proofs.«113783_j2903397892894_1_alg».proof.Proof.LibAfterSplit
import proofs.«113783_j2903397892894_1_alg».proof.Proof.LibTypedRef
import Idealize.ShloMosaic.Lib.StableHlo.Run

set_option maxRecDepth 16384

noncomputable section

namespace Cert.ChebNet.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-! ## Operations 0–16 -/

set_option maxHeartbeats 4000000 in
/-- The edge list's rows, the degree count and its comparisons, from the edge list. -/
theorem first_values (x1 : (⟨S2x1600000, .i32⟩ : BufTy).Contents (Elt Ideal)) (h1 : V (Proc.devRef .tc main_arg1) = x1) :
    StableHlo.after (List.take 17 (ops (F := Ideal))) V (Proc.devRef .tc main_v7) = val_main_v7 (F := Ideal) x1
    ∧ StableHlo.after (List.take 17 (ops (F := Ideal))) V (Proc.devRef .tc main_v9) = val_main_v9 (F := Ideal) x1
    ∧ StableHlo.after (List.take 17 (ops (F := Ideal))) V (Proc.devRef .tc main_v11) = val_main_v11 (F := Ideal) x1
    ∧ StableHlo.after (List.take 17 (ops (F := Ideal))) V (Proc.devRef .tc main_cst_3) = val_main_cst_3 (F := Ideal)
    ∧ StableHlo.after (List.take 17 (ops (F := Ideal))) V (Proc.devRef .tc main_v1) = val_main_v1 (F := Ideal) x1
    ∧ StableHlo.after (List.take 17 (ops (F := Ideal))) V (Proc.devRef .tc main_v3) = val_main_v3 (F := Ideal) x1 := by
  refine ⟨?_, ?_, ?_, ?_, ?_, ?_⟩ <;>
  · simp only [ops, List.take_succ_cons, List.take_zero, List.drop_succ_cons, List.drop_zero]
    after_results_simp
    try simp only [h1]
    rfl

set_option maxHeartbeats 4000000 in
theorem first_keeps :
    StableHlo.after (List.take 17 (ops (F := Ideal))) V (Proc.devRef .tc main_arg0) = V (Proc.devRef .tc main_arg0)
    ∧ StableHlo.after (List.take 17 (ops (F := Ideal))) V (Proc.devRef .tc main_arg2) = V (Proc.devRef .tc main_arg2)
    ∧ StableHlo.after (List.take 17 (ops (F := Ideal))) V (Proc.devRef .tc main_arg3) = V (Proc.devRef .tc main_arg3)
    ∧ StableHlo.after (List.take 17 (ops (F := Ideal))) V (Proc.devRef .tc main_arg4) = V (Proc.devRef .tc main_arg4)
    ∧ StableHlo.after (List.take 17 (ops (F := Ideal))) V (Proc.devRef .tc main_arg5) = V (Proc.devRef .tc main_arg5) := by
  refine ⟨?_, ?_, ?_, ?_, ?_⟩ <;> (simp only [ops, List.take_succ_cons, List.take_zero, List.drop_succ_cons, List.drop_zero]; after_results_simp)

/-! ## Operations 17–24 -/

set_option maxHeartbeats 4000000 in
theorem base_keeps :
    StableHlo.after (List.take 8 (List.drop 17 (ops (F := Ideal)))) V (Proc.devRef .tc main_v1) = V (Proc.devRef .tc main_v1)
    ∧ StableHlo.after (List.take 8 (List.drop 17 (ops (F := Ideal)))) V (Proc.devRef .tc main_v3) = V (Proc.devRef .tc main_v3)
    ∧ StableHlo.after (List.take 8 (List.drop 17 (ops (F := Ideal)))) V (Proc.devRef .tc main_arg0) = V (Proc.devRef .tc main_arg0)
    ∧ StableHlo.after (List.take 8 (List.drop 17 (ops (F := Ideal)))) V (Proc.devRef .tc main_arg2) = V (Proc.devRef .tc main_arg2)
    ∧ StableHlo.after (List.take 8 (List.drop 17 (ops (F := Ideal)))) V (Proc.devRef .tc main_arg3) = V (Proc.devRef .tc main_arg3)
    ∧ StableHlo.after (List.take 8 (List.drop 17 (ops (F := Ideal)))) V (Proc.devRef .tc main_arg4) = V (Proc.devRef .tc main_arg4)
    ∧ StableHlo.after (List.take 8 (List.drop 17 (ops (F := Ideal)))) V (Proc.devRef .tc main_arg5) = V (Proc.devRef .tc main_arg5) := by
  refine ⟨?_, ?_, ?_, ?_, ?_, ?_, ?_⟩ <;> (simp only [ops, List.take_succ_cons, List.take_zero, List.drop_succ_cons, List.drop_zero]; after_results_simp)

set_option maxHeartbeats 4000000 in
/-- `d^(−1/2)`, zero where no edge arrives, from the degree and its comparisons. -/
theorem base_value :
    StableHlo.after (List.take 8 (List.drop 17 (ops (F := Ideal)))) V (Proc.devRef .tc main_v14)
      = (select (α := Ideal .f32) (V (Proc.devRef .tc main_v9) : IVec S100000 1)
          (Host.rsqrt (F := Ideal) (φ := .f32)
            (select (α := Ideal .f32) (V (Proc.devRef .tc main_v11) : IVec S100000 1) (V (Proc.devRef .tc main_v7) : FVec Ideal S100000 .f32)
              (broadcastInDim (α := Ideal .f32) S100000 ![] bcast_S_S100000 (V (Proc.devRef .tc main_cst_3) : FVec Ideal S_ .f32))))
          (broadcastInDim (α := Ideal .f32) S100000 ![] bcast_S_S100000 (constant (F := Ideal) S_ .f32 0x00000000#32))
        : (⟨S100000, .f32⟩ : BufTy).Contents (Elt Ideal)) := by
  simp only [ops, List.take_succ_cons, List.take_zero, List.drop_succ_cons, List.drop_zero]
  after_results_simp
  rfl

/-- The same in the reference's stages. -/
theorem base_stage (x1 : (⟨S2x1600000, .i32⟩ : BufTy).Contents (Elt Ideal)) (h9 : V (Proc.devRef .tc main_v9) = val_main_v9 (F := Ideal) x1) (h11 : V (Proc.devRef .tc main_v11) = val_main_v11 (F := Ideal) x1)
    (h7 : V (Proc.devRef .tc main_v7) = val_main_v7 (F := Ideal) x1) (hc : V (Proc.devRef .tc main_cst_3) = val_main_cst_3 (F := Ideal)) :
    StableHlo.after (List.take 8 (List.drop 17 (ops (F := Ideal)))) V (Proc.devRef .tc main_v14) = val_main_v14 (F := Ideal) x1 := by
  rw [base_value, h9, h11, h7, hc]
  rfl

/-! ## Operations 25–94 -/

set_option maxHeartbeats 8000000 in
/-- The edges' coefficients, and the first layer before its `relu`. -/
theorem layer1_stage (x0 : (⟨S100000x128, .f32⟩ : BufTy).Contents (Elt Ideal)) (x1 : (⟨S2x1600000, .i32⟩ : BufTy).Contents (Elt Ideal)) (x2 : (⟨S3x128x64, .f32⟩ : BufTy).Contents (Elt Ideal)) (x3 : (⟨S64, .f32⟩ : BufTy).Contents (Elt Ideal))
    (h14 : V (Proc.devRef .tc main_v14) = val_main_v14 (F := Ideal) x1) (h1 : V (Proc.devRef .tc main_v1) = val_main_v1 (F := Ideal) x1)
    (h3 : V (Proc.devRef .tc main_v3) = val_main_v3 (F := Ideal) x1) (h0 : V (Proc.devRef .tc main_arg0) = x0)
    (h2 : V (Proc.devRef .tc main_arg2) = x2) (ha3 : V (Proc.devRef .tc main_arg3) = x3) :
    StableHlo.after (List.take 70 (List.drop 8 (List.drop 17 (ops (F := Ideal))))) V (Proc.devRef .tc main_v30) = val_main_v30 (F := Ideal) x1
    ∧ StableHlo.after (List.take 70 (List.drop 8 (List.drop 17 (ops (F := Ideal))))) V (Proc.devRef .tc main_v73) = val_main_v73 (F := Ideal) x0 x1 x2 x3 := by
  refine ⟨?_, ?_⟩ <;>
  · simp only [ops, List.take_succ_cons, List.take_zero, List.drop_succ_cons, List.drop_zero]
    after_results_simp
    simp only [h14, h1, h3, h0, h2, ha3]
    rfl

set_option maxHeartbeats 8000000 in
theorem layer1_keeps :
    StableHlo.after (List.take 70 (List.drop 8 (List.drop 17 (ops (F := Ideal))))) V (Proc.devRef .tc main_v1) = V (Proc.devRef .tc main_v1)
    ∧ StableHlo.after (List.take 70 (List.drop 8 (List.drop 17 (ops (F := Ideal))))) V (Proc.devRef .tc main_v3) = V (Proc.devRef .tc main_v3)
    ∧ StableHlo.after (List.take 70 (List.drop 8 (List.drop 17 (ops (F := Ideal))))) V (Proc.devRef .tc main_arg4) = V (Proc.devRef .tc main_arg4)
    ∧ StableHlo.after (List.take 70 (List.drop 8 (List.drop 17 (ops (F := Ideal))))) V (Proc.devRef .tc main_arg5) = V (Proc.devRef .tc main_arg5) := by
  refine ⟨?_, ?_, ?_, ?_⟩ <;> (simp only [ops, List.take_succ_cons, List.take_zero, List.drop_succ_cons, List.drop_zero]; after_results_simp)

/-! ## Operations 95–97 -/

set_option maxHeartbeats 4000000 in
theorem relu_keeps :
    StableHlo.after (List.take 3 (List.drop 70 (List.drop 8 (List.drop 17 (ops (F := Ideal)))))) V (Proc.devRef .tc main_v30) = V (Proc.devRef .tc main_v30)
    ∧ StableHlo.after (List.take 3 (List.drop 70 (List.drop 8 (List.drop 17 (ops (F := Ideal)))))) V (Proc.devRef .tc main_v1) = V (Proc.devRef .tc main_v1)
    ∧ StableHlo.after (List.take 3 (List.drop 70 (List.drop 8 (List.drop 17 (ops (F := Ideal)))))) V (Proc.devRef .tc main_v3) = V (Proc.devRef .tc main_v3)
    ∧ StableHlo.after (List.take 3 (List.drop 70 (List.drop 8 (List.drop 17 (ops (F := Ideal)))))) V (Proc.devRef .tc main_arg4) = V (Proc.devRef .tc main_arg4)
    ∧ StableHlo.after (List.take 3 (List.drop 70 (List.drop 8 (List.drop 17 (ops (F := Ideal)))))) V (Proc.devRef .tc main_arg5) = V (Proc.devRef .tc main_arg5) := by
  refine ⟨?_, ?_, ?_, ?_, ?_⟩ <;> (simp only [ops, List.take_succ_cons, List.take_zero, List.drop_succ_cons, List.drop_zero]; after_results_simp)

set_option maxHeartbeats 4000000 in
/-- `relu` of the first layer: the reference's hidden features. -/
theorem relu_stage (x0 : (⟨S100000x128, .f32⟩ : BufTy).Contents (Elt Ideal)) (x1 : (⟨S2x1600000, .i32⟩ : BufTy).Contents (Elt Ideal)) (x2 : (⟨S3x128x64, .f32⟩ : BufTy).Contents (Elt Ideal)) (x3 : (⟨S64, .f32⟩ : BufTy).Contents (Elt Ideal))
    (h73 : V (Proc.devRef .tc main_v73) = val_main_v73 (F := Ideal) x0 x1 x2 x3) :
    StableHlo.after (List.take 3 (List.drop 70 (List.drop 8 (List.drop 17 (ops (F := Ideal)))))) V (Proc.devRef .tc main_v74) = val_main_v74 (F := Ideal) x0 x1 x2 x3 := by
  simp only [ops, List.take_succ_cons, List.take_zero, List.drop_succ_cons, List.drop_zero]
  after_results_simp
  rw [h73]
  rfl

/-! ## Operations 98–147 -/

set_option maxHeartbeats 8000000 in
/-- The second layer before its softmax. -/
theorem layer2_stage (x0 : (⟨S100000x128, .f32⟩ : BufTy).Contents (Elt Ideal)) (x1 : (⟨S2x1600000, .i32⟩ : BufTy).Contents (Elt Ideal)) (x2 : (⟨S3x128x64, .f32⟩ : BufTy).Contents (Elt Ideal)) (x3 : (⟨S64, .f32⟩ : BufTy).Contents (Elt Ideal)) (x4 : (⟨S3x64x40, .f32⟩ : BufTy).Contents (Elt Ideal)) (x5 : (⟨S40, .f32⟩ : BufTy).Contents (Elt Ideal))
    (h74 : V (Proc.devRef .tc main_v74) = val_main_v74 (F := Ideal) x0 x1 x2 x3) (h30 : V (Proc.devRef .tc main_v30) = val_main_v30 (F := Ideal) x1)
    (h1 : V (Proc.devRef .tc main_v1) = val_main_v1 (F := Ideal) x1) (h3 : V (Proc.devRef .tc main_v3) = val_main_v3 (F := Ideal) x1)
    (h4 : V (Proc.devRef .tc main_arg4) = x4) (h5 : V (Proc.devRef .tc main_arg5) = x5) :
    StableHlo.after (List.take 50 (List.drop 3 (List.drop 70 (List.drop 8 (List.drop 17 (ops (F := Ideal))))))) V (Proc.devRef .tc main_v117) = val_main_v117 (F := Ideal) x0 x1 x2 x3 x4 x5 := by
  simp only [ops, List.take_succ_cons, List.take_zero, List.drop_succ_cons, List.drop_zero]
  after_results_simp
  simp only [h74, h30, h1, h3, h4, h5]
  rfl

/-! ## Operations 148–162 -/

set_option maxHeartbeats 8000000 in
set_option maxRecDepth 65536 in
/-- `log_softmax`. -/
theorem softmax_stage (x0 : (⟨S100000x128, .f32⟩ : BufTy).Contents (Elt Ideal)) (x1 : (⟨S2x1600000, .i32⟩ : BufTy).Contents (Elt Ideal)) (x2 : (⟨S3x128x64, .f32⟩ : BufTy).Contents (Elt Ideal)) (x3 : (⟨S64, .f32⟩ : BufTy).Contents (Elt Ideal)) (x4 : (⟨S3x64x40, .f32⟩ : BufTy).Contents (Elt Ideal)) (x5 : (⟨S40, .f32⟩ : BufTy).Contents (Elt Ideal))
    (h117 : V (Proc.devRef .tc main_v117) = val_main_v117 (F := Ideal) x0 x1 x2 x3 x4 x5) :
    StableHlo.after (List.drop 50 (List.drop 3 (List.drop 70 (List.drop 8 (List.drop 17 (ops (F := Ideal))))))) V (Proc.devRef .tc main_v118) = val_main_v118 (F := Ideal) x0 x1 x2 x3 x4 x5 := by
  simp only [ops, List.take_succ_cons, List.take_zero, List.drop_succ_cons, List.drop_zero]
  after_results_simp
  rw [h117]
  unfold val_main_v118 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0 val_main_call3_v0
    val_main_call3_cst
  generalize val_main_v117 (F := Ideal) x0 x1 x2 x3 x4 x5 = a
  simp only [Cert.TypedRef.ofBuf_toBuf]
  rfl

end Cert.ChebNet.RefStages

end
-- ==== Proof.RefRun.lean ====
/-
  The reference program's run, read back through its stages.

  The reference's @main is a straight line of 163 host operations. Run in order from any memory, every weakly fair
  execution terminates, and each buffer ends at the fold of the operations' results over the launch contents. That fold
  is read in six stretches, each over what the previous one leaves (the module on the reference's stretches): the result
  buffer ends at the last stage, `val_main_v118`, of the six argument arrays as launched. No operation writes an
  argument array, so the arguments end as launched.
-/
import proofs.«113783_j2903397892894_1_alg».proof.Proof.RefReadP
import proofs.«113783_j2903397892894_1_alg».proof.Proof.RefStages
import proofs.«113783_j2903397892894_1_alg».proof.Proof.LibAfterSplit
import Idealize.ShloMosaic.Lib.StableHlo.Run

noncomputable section

namespace Cert.ChebNet.RefRun

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

/-- The line of operations as its six stretches, each over what the one before leaves. -/
theorem split (V : Valuation τ sig (Elt Ideal)) :
    StableHlo.after (ops (F := Ideal)) V
      = StableHlo.after (List.drop 50 (List.drop 3 (List.drop 70 (List.drop 8 (List.drop 17 (ops (F := Ideal))))))) (StableHlo.after (List.take 50 (List.drop 3 (List.drop 70 (List.drop 8 (List.drop 17 (ops (F := Ideal))))))) (StableHlo.after (List.take 3 (List.drop 70 (List.drop 8 (List.drop 17 (ops (F := Ideal))))))
          (StableHlo.after (List.take 70 (List.drop 8 (List.drop 17 (ops (F := Ideal))))) (StableHlo.after (List.take 8 (List.drop 17 (ops (F := Ideal)))) (StableHlo.after (List.take 17 (ops (F := Ideal))) V))))) :=
  (Cert.AfterSplit.after_take_drop (ops (F := Ideal)) 17 V).trans
    ((Cert.AfterSplit.after_take_drop (List.drop 17 (ops (F := Ideal))) 8 _).trans
      ((Cert.AfterSplit.after_take_drop (List.drop 8 (List.drop 17 (ops (F := Ideal)))) 70 _).trans
        ((Cert.AfterSplit.after_take_drop (List.drop 70 (List.drop 8 (List.drop 17 (ops (F := Ideal))))) 3 _).trans
          (Cert.AfterSplit.after_take_drop (List.drop 3 (List.drop 70 (List.drop 8 (List.drop 17 (ops (F := Ideal)))))) 50 _))))

/-- The result buffer after the 163 operations: the last stage of the arguments as launched. -/
theorem result_eq :
    StableHlo.after (ops (F := Ideal)) (launchContents m c) (Proc.devRef .tc main_v118)
      = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [split]
  have hA := Cert.ChebNet.RefStages.first_values (launchContents m c) (m ((c.tc : Thread nD τ).loc main_arg1)) rfl
  have kA := Cert.ChebNet.RefStages.first_keeps (launchContents m c)
  have kB := Cert.ChebNet.RefStages.base_keeps (StableHlo.after (List.take 17 (ops (F := Ideal))) (launchContents m c))
  have hB := Cert.ChebNet.RefStages.base_stage (StableHlo.after (List.take 17 (ops (F := Ideal))) (launchContents m c)) (m ((c.tc : Thread nD τ).loc main_arg1)) hA.2.1 hA.2.2.1 hA.1 hA.2.2.2.1
  have hC := Cert.ChebNet.RefStages.layer1_stage (StableHlo.after (List.take 8 (List.drop 17 (ops (F := Ideal)))) (StableHlo.after (List.take 17 (ops (F := Ideal))) (launchContents m c))) (m ((c.tc : Thread nD τ).loc main_arg0)) (m ((c.tc : Thread nD τ).loc main_arg1)) (m ((c.tc : Thread nD τ).loc main_arg2)) (m ((c.tc : Thread nD τ).loc main_arg3))
    hB (kB.1.trans hA.2.2.2.2.1) (kB.2.1.trans hA.2.2.2.2.2) (kB.2.2.1.trans kA.1) (kB.2.2.2.1.trans kA.2.1) (kB.2.2.2.2.1.trans kA.2.2.1)
  have kC := Cert.ChebNet.RefStages.layer1_keeps (StableHlo.after (List.take 8 (List.drop 17 (ops (F := Ideal)))) (StableHlo.after (List.take 17 (ops (F := Ideal))) (launchContents m c)))
  have hD := Cert.ChebNet.RefStages.relu_stage (StableHlo.after (List.take 70 (List.drop 8 (List.drop 17 (ops (F := Ideal))))) (StableHlo.after (List.take 8 (List.drop 17 (ops (F := Ideal)))) (StableHlo.after (List.take 17 (ops (F := Ideal))) (launchContents m c)))) (m ((c.tc : Thread nD τ).loc main_arg0)) (m ((c.tc : Thread nD τ).loc main_arg1)) (m ((c.tc : Thread nD τ).loc main_arg2)) (m ((c.tc : Thread nD τ).loc main_arg3)) hC.2
  have kD := Cert.ChebNet.RefStages.relu_keeps (StableHlo.after (List.take 70 (List.drop 8 (List.drop 17 (ops (F := Ideal))))) (StableHlo.after (List.take 8 (List.drop 17 (ops (F := Ideal)))) (StableHlo.after (List.take 17 (ops (F := Ideal))) (launchContents m c))))
  have hE := Cert.ChebNet.RefStages.layer2_stage
    (StableHlo.after (List.take 3 (List.drop 70 (List.drop 8 (List.drop 17 (ops (F := Ideal)))))) (StableHlo.after (List.take 70 (List.drop 8 (List.drop 17 (ops (F := Ideal))))) (StableHlo.after (List.take 8 (List.drop 17 (ops (F := Ideal)))) (StableHlo.after (List.take 17 (ops (F := Ideal))) (launchContents m c)))))
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    hD (kD.1.trans hC.1) (kD.2.1.trans (kC.1.trans (kB.1.trans hA.2.2.2.2.1))) (kD.2.2.1.trans (kC.2.1.trans (kB.2.1.trans hA.2.2.2.2.2)))
    (kD.2.2.2.1.trans (kC.2.2.1.trans (kB.2.2.2.2.2.1.trans kA.2.2.2.1))) (kD.2.2.2.2.trans (kC.2.2.2.trans (kB.2.2.2.2.2.2.trans kA.2.2.2.2)))
  exact Cert.ChebNet.RefStages.softmax_stage _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hE

set_option maxRecDepth 16384 in
set_option maxHeartbeats 40000000 in
/-- No operation writes an argument array. -/
theorem args_eq :
    StableHlo.after (ops (F := Ideal)) (launchContents m c) (Proc.devRef .tc main_arg0) = (m ((c.tc : Thread nD τ).loc main_arg0))
    ∧ StableHlo.after (ops (F := Ideal)) (launchContents m c) (Proc.devRef .tc main_arg1) = (m ((c.tc : Thread nD τ).loc main_arg1))
    ∧ StableHlo.after (ops (F := Ideal)) (launchContents m c) (Proc.devRef .tc main_arg2) = (m ((c.tc : Thread nD τ).loc main_arg2))
    ∧ StableHlo.after (ops (F := Ideal)) (launchContents m c) (Proc.devRef .tc main_arg3) = (m ((c.tc : Thread nD τ).loc main_arg3))
    ∧ StableHlo.after (ops (F := Ideal)) (launchContents m c) (Proc.devRef .tc main_arg4) = (m ((c.tc : Thread nD τ).loc main_arg4))
    ∧ StableHlo.after (ops (F := Ideal)) (launchContents m c) (Proc.devRef .tc main_arg5) = (m ((c.tc : Thread nD τ).loc main_arg5)) := by
  refine ⟨?_, ?_, ?_, ?_, ?_, ?_⟩ <;> (after_results_simp <;> rfl)

/-- THE RUN: every weakly fair execution of the reference's @main terminates, nothing faulting, with the result buffer
    at the last stage of the launch arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v118)
        = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c =>
      ⟨(h c main_v118).trans (result_eq m c), (h c main_arg0).trans (args_eq m c).1, (h c main_arg1).trans (args_eq m c).2.1,
        (h c main_arg2).trans (args_eq m c).2.2.1, (h c main_arg3).trans (args_eq m c).2.2.2.1,
        (h c main_arg4).trans (args_eq m c).2.2.2.2.1, (h c main_arg5).trans (args_eq m c).2.2.2.2.2⟩)
    (run_seq scopedRefs_eq scopedSems_eq defs main (fun _ => ops) main_eq (fun _ => ops_sub) m ρ)

end Cert.ChebNet.RefRun

end
-- ==== Proof.KernelRun.lean ====
/-
  The idealized kernel program's run, with its result buffer named.

  @main is eight segments: five stretches of host operations, the first kernel over its twenty grid points, one more
  stretch of host operations, the second kernel over its twenty grid points. The buffers' contents at each boundary are
  a fold from the launch memory (`W0 … W8`: a host stretch applies its operations' functions, a kernel leaves in each
  of its arrays what its write-backs leave and every other buffer alone). Every weakly fair execution terminates without
  a fault, and its final state holds the last boundary's contents at every buffer the program does not scope: the result
  buffer at `W8`'s value there, and each argument array, which no operation and no kernel writes, as launched.
-/
import proofs.«113783_j2903397892894_1_alg».proof.Proof.Gen.KernelIdeal.Frame

set_option maxRecDepth 16384

noncomputable section

namespace Cert.ChebNet.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault from any memory with zero counters; the result buffer ends at the last
    boundary's contents, the arguments as launched. -/
theorem run_named : θ_run defs (onTc (τ := τ) (main (F := F))) ⟨m, fun _ => 0, ρ⟩ (fun r => ∀ c : Dev nD,
      r.2.mem ((c.tc : Thread nD τ).loc main_v90) = W8 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v90 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.ChebNet.KernelRun

end
-- ==== Proof.Spec.lean ====
/-
  Two Chebyshev graph-convolution layers as functions of their dense inputs, entry by entry, over the extended reals.

  A layer with three taps takes three feature matrices `X0 X1 X2` of shape `[n, d]` (the features, their image under the
  graph operator, and the second Chebyshev polynomial of it), a weight tensor `W` of shape `[3, d, k]` and a bias `b` of
  shape `[k]`. Before its nonlinearity, entry `(r, j)` of the layer is

      (Σ_q X0(r,q)·W(0,q,j) + Σ_q X1(r,q)·W(1,q,j)) + Σ_q X2(r,q)·W(2,q,j) + b(j),

  the three products added in this order and the bias last. The first layer takes the maximum of that with zero; the
  second subtracts the row's maximum `M` and then the logarithm of the row's sum of `exp (· - M)` (a row-wise
  log-softmax). The row's maximum is written as the fold of `max` from the value of the pattern `0xFF800000`, and zero
  as the value of the pattern `0x00000000`: the same words both programs use, so neither is ever evaluated here.
-/
import Idealize.ShloMosaic.PureOps.Ideal
import Idealize.ShloMosaic.PureOps.Ideal.Laws
import Idealize.ShloMosaic.Lib.ValueIdx

noncomputable section

namespace Cert.ChebNet

open Idealize.ShloMosaic Idealize.ShloMosaic.ValueIdx

variable {n d k : Nat}

/-- One tap: row `r` of `X` against slice `s` of the weights, at column `j`. -/
def tap (X : (⟨2, ![n, d]⟩ : Shape).Idx → EReal) (W : (⟨3, ![3, d, k]⟩ : Shape).Idx → EReal)
    (s : Fin 3) (r : Fin n) (j : Fin k) : EReal :=
  ∑ q : Fin d, X (ix2 r q) * W (ix3 s q j)

/-- The layer before its nonlinearity, at `(r, j)`: the three taps added left to right, then the bias. -/
def pre (X0 X1 X2 : (⟨2, ![n, d]⟩ : Shape).Idx → EReal) (W : (⟨3, ![3, d, k]⟩ : Shape).Idx → EReal)
    (b : (⟨1, ![k]⟩ : Shape).Idx → EReal) (r : Fin n) (j : Fin k) : EReal :=
  tap X0 W 0 r j + tap X1 W 1 r j + tap X2 W 2 r j + b (ix1 j)

/-- The rectified layer at `(r, j)`. -/
def reluAt (X0 X1 X2 : (⟨2, ![n, d]⟩ : Shape).Idx → EReal) (W : (⟨3, ![3, d, k]⟩ : Shape).Idx → EReal)
    (b : (⟨1, ![k]⟩ : Shape).Idx → EReal) (r : Fin n) (j : Fin k) : EReal :=
  max (pre X0 X1 X2 W b r j) (Ideal.ofBits .f32 0x00000000#32)

/-- The rectified layer as an array. -/
def reluLayer (X0 X1 X2 : (⟨2, ![n, d]⟩ : Shape).Idx → EReal) (W : (⟨3, ![3, d, k]⟩ : Shape).Idx → EReal)
    (b : (⟨1, ![k]⟩ : Shape).Idx → EReal) : (⟨2, ![n, k]⟩ : Shape).Idx → EReal :=
  fun i => reluAt X0 X1 X2 W b ⟨(i 0).val, idx2_lt0 i⟩ ⟨(i 1).val, idx2_lt1 i⟩

theorem reluLayer_ix2 (X0 X1 X2 : (⟨2, ![n, d]⟩ : Shape).Idx → EReal) (W : (⟨3, ![3, d, k]⟩ : Shape).Idx → EReal)
    (b : (⟨1, ![k]⟩ : Shape).Idx → EReal) (r : Fin n) (j : Fin k) :
    reluLayer X0 X1 X2 W b (ix2 r j) = reluAt X0 X1 X2 W b r j := rfl

/-- A row's maximum: the fold of `max` over the row from the value of the pattern `0xFF800000`. -/
def rowMax (a : Fin k → EReal) : EReal :=
  (Finset.univ : Finset (Fin k)).fold max (Ideal.ofBits .f32 0xFF800000#32) a

/-- Taking the maximum with the fold's starting value once more changes nothing. -/
theorem max_rowMax (a : Fin k → EReal) : max (Ideal.ofBits .f32 0xFF800000#32) (rowMax a) = rowMax a :=
  max_eq_right (Finset.le_fold_max _ |>.mpr (Or.inl le_rfl))

/-- The row-wise log-softmax layer at `(r, j)`. -/
def logSoftmaxAt (X0 X1 X2 : (⟨2, ![n, d]⟩ : Shape).Idx → EReal) (W : (⟨3, ![3, d, k]⟩ : Shape).Idx → EReal)
    (b : (⟨1, ![k]⟩ : Shape).Idx → EReal) (r : Fin n) (j : Fin k) : EReal :=
  (pre X0 X1 X2 W b r j - rowMax (pre X0 X1 X2 W b r))
    - Ideal.log (∑ j' : Fin k, Ideal.exp (pre X0 X1 X2 W b r j' - rowMax (pre X0 X1 X2 W b r)))

/-- The log-softmax layer as an array. -/
def logSoftmaxLayer (X0 X1 X2 : (⟨2, ![n, d]⟩ : Shape).Idx → EReal) (W : (⟨3, ![3, d, k]⟩ : Shape).Idx → EReal)
    (b : (⟨1, ![k]⟩ : Shape).Idx → EReal) : (⟨2, ![n, k]⟩ : Shape).Idx → EReal :=
  fun i => logSoftmaxAt X0 X1 X2 W b ⟨(i 0).val, idx2_lt0 i⟩ ⟨(i 1).val, idx2_lt1 i⟩

theorem logSoftmaxLayer_ix2 (X0 X1 X2 : (⟨2, ![n, d]⟩ : Shape).Idx → EReal) (W : (⟨3, ![3, d, k]⟩ : Shape).Idx → EReal)
    (b : (⟨1, ![k]⟩ : Shape).Idx → EReal) (r : Fin n) (j : Fin k) :
    logSoftmaxLayer X0 X1 X2 W b (ix2 r j) = logSoftmaxAt X0 X1 X2 W b r j := rfl

end Cert.ChebNet

end
-- ==== Proof.RefLayer1.lean ====
/-
  The reference's first layer is the rectified three-tap layer of its inputs.

  The reference computes `relu ((x·W[0] + (L x)·W[1]) + (2·L(L x) − x)·W[2] + b)`: three matrix products of the full
  feature matrices against the three `[128, 64]` slices of the weight tensor, added left to right, the bias broadcast
  over the rows, and the maximum with zero. Read at an entry `(r, j)`: each product is a sum over the shared axis, a
  slice `s` of the weights reshaped to a matrix is the tensor at `(s, q, j)`, and the bias is read at `j`. The two
  propagated matrices `L x` and `2·L(L x) − x` stay as the reference's own terms: nothing here looks inside them.
-/
import proofs.«113783_j2903397892894_1_alg».proof.Proof.RefReadP
import proofs.«113783_j2903397892894_1_alg».proof.Proof.Spec

noncomputable section

namespace Cert.ChebNet.Ref

open Cert.ReferenceIdeal Cert.ReferenceIdeal.Gen Cert.ReferenceIdeal.ReadP Idealize.ShloMosaic Idealize.ShloMosaic.ValueIdx

/-- Slice 0 of the first layer's weights, as a matrix, at `(q, j)`. -/
theorem w1_slice0 (x2 : (⟨S3x128x64, .f32⟩ : BufTy).Contents (Elt Ideal)) (q : Fin 128) (j : Fin 64) :
    val_main_v32 (F := Ideal) x2 (ix2 q j) = x2 (ix3 (0 : Fin 3) q j) := by
  rw [val_main_v32_apply, val_main_v31_apply]
  refine congrArg x2 (funext fun a => Fin.ext ?_)
  have hq := q.isLt
  have hj := j.isLt
  match a with
  | ⟨0, _⟩ => rfl
  | ⟨1, _⟩ => show (q.val * 64 + j.val) / 64 % 128 = q.val; omega
  | ⟨2, _⟩ => show (q.val * 64 + j.val) % 64 = j.val; omega

/-- Slice 1, at `(q, j)`. -/
theorem w1_slice1 (x2 : (⟨S3x128x64, .f32⟩ : BufTy).Contents (Elt Ideal)) (q : Fin 128) (j : Fin 64) :
    val_main_v48 (F := Ideal) x2 (ix2 q j) = x2 (ix3 (1 : Fin 3) q j) := by
  rw [val_main_v48_apply, val_main_v47_apply]
  refine congrArg x2 (funext fun a => Fin.ext ?_)
  have hq := q.isLt
  have hj := j.isLt
  match a with
  | ⟨0, _⟩ => rfl
  | ⟨1, _⟩ => show (q.val * 64 + j.val) / 64 % 128 = q.val; omega
  | ⟨2, _⟩ => show (q.val * 64 + j.val) % 64 = j.val; omega

/-- Slice 2, at `(q, j)`. -/
theorem w1_slice2 (x2 : (⟨S3x128x64, .f32⟩ : BufTy).Contents (Elt Ideal)) (q : Fin 128) (j : Fin 64) :
    val_main_v68 (F := Ideal) x2 (ix2 q j) = x2 (ix3 (2 : Fin 3) q j) := by
  rw [val_main_v68_apply, val_main_v67_apply]
  refine congrArg x2 (funext fun a => Fin.ext ?_)
  have hq := q.isLt
  have hj := j.isLt
  match a with
  | ⟨0, _⟩ => rfl
  | ⟨1, _⟩ => show (q.val * 64 + j.val) / 64 % 128 = q.val; omega
  | ⟨2, _⟩ => show (q.val * 64 + j.val) % 64 = j.val; omega

/-- The product of the features with slice 0 is the first tap. -/
theorem l1_tap0 (x0 : (⟨S100000x128, .f32⟩ : BufTy).Contents (Elt Ideal)) (x2 : (⟨S3x128x64, .f32⟩ : BufTy).Contents (Elt Ideal))
    (r : Fin 100000) (j : Fin 64) :
    val_main_v33 (F := Ideal) x0 x2 (ix2 r j) = tap (n := 100000) (d := 128) (k := 64) x0 x2 0 r j := by
  rw [val_main_v33_apply]
  unfold tap
  refine Finset.sum_congr rfl fun q _ => ?_
  rw [show lidx_main_v33 (ix2 r j) q = ix2 r q from funext fun a => by match a with | ⟨0, _⟩ => rfl | ⟨1, _⟩ => rfl,
    show ridx_main_v33 (ix2 r j) q = ix2 q j from funext fun a => by match a with | ⟨0, _⟩ => rfl | ⟨1, _⟩ => rfl,
    w1_slice0]

/-- The product of the once-propagated features with slice 1 is the second tap. -/
theorem l1_tap1 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (r : Fin 100000) (j : Fin 64) :
    val_main_v49 (F := Ideal) x0 x1 x2 (ix2 r j)
      = tap (n := 100000) (d := 128) (k := 64) (val_main_v46 (F := Ideal) x0 x1) x2 1 r j := by
  rw [val_main_v49_apply]
  unfold tap
  refine Finset.sum_congr rfl fun q _ => ?_
  rw [show lidx_main_v49 (ix2 r j) q = ix2 r q from funext fun a => by match a with | ⟨0, _⟩ => rfl | ⟨1, _⟩ => rfl,
    show ridx_main_v49 (ix2 r j) q = ix2 q j from funext fun a => by match a with | ⟨0, _⟩ => rfl | ⟨1, _⟩ => rfl,
    w1_slice1]

/-- The product of the second Chebyshev term with slice 2 is the third tap. -/
theorem l1_tap2 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (r : Fin 100000) (j : Fin 64) :
    val_main_v69 (F := Ideal) x0 x1 x2 (ix2 r j)
      = tap (n := 100000) (d := 128) (k := 64) (val_main_v66 (F := Ideal) x0 x1) x2 2 r j := by
  rw [val_main_v69_apply]
  unfold tap
  refine Finset.sum_congr rfl fun q _ => ?_
  rw [show lidx_main_v69 (ix2 r j) q = ix2 r q from funext fun a => by match a with | ⟨0, _⟩ => rfl | ⟨1, _⟩ => rfl,
    show ridx_main_v69 (ix2 r j) q = ix2 q j from funext fun a => by match a with | ⟨0, _⟩ => rfl | ⟨1, _⟩ => rfl,
    w1_slice2]

/-- The reference's hidden features are the rectified layer of the features, their two propagated forms, the first
    weights and the first bias. -/
theorem layer1 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal)) :
    val_main_v74 (F := Ideal) x0 x1 x2 x3
      = reluLayer (n := 100000) (d := 128) (k := 64) x0 (val_main_v46 (F := Ideal) x0 x1) (val_main_v66 (F := Ideal) x0 x1) x2 x3 := by
  funext i
  obtain ⟨r, j, rfl⟩ : ∃ (r : Fin 100000) (j : Fin 64), i = ix2 r j := ⟨i 0, i 1, eq_ix2 i⟩
  rw [reluLayer_ix2, val_main_v74_apply, val_main_v73_apply, val_main_v70_apply, val_main_v50_apply, l1_tap0, l1_tap1, l1_tap2,
    val_main_v72_apply, val_main_v71_apply, val_main_call2_v0_apply, val_main_call2_cst_apply,
    show idx_main_v71 (idx_main_v72 (ix2 r j)) = ix1 j from funext fun a => by match a with | ⟨0, _⟩ => rfl]
  rfl

end Cert.ChebNet.Ref

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.RefLayer2.lean ====
/-
  The reference's second layer is the row-wise log-softmax of the three-tap layer of the hidden features.

  With `h` the hidden features, `L h` and `2·L(L h) − h` their two propagated forms (all three kept as the reference's
  own terms), the reference forms `a = (h·W[0] + (L h)·W[1]) + (2·L(L h) − h)·W[2] + b` and then, along each row,
  `(a − M) − log Σ exp (a − M)` with `M` the row's maximum. Read at an entry `(r, j)`: the products are sums over the
  shared axis; the maximum is the fold of `max` over the row from the value of the pattern `0xFF800000`, and the further
  maximum with that same value, which jax's log-softmax inserts, changes nothing; the row sum starts from the value of the
  zero pattern, which is zero.
-/
import proofs.«113783_j2903397892894_1_alg».proof.Proof.RefReadP
import proofs.«113783_j2903397892894_1_alg».proof.Proof.Spec
import proofs.«113783_j2903397892894_1_alg».proof.Proof.LibRowOps

noncomputable section

namespace Cert.ChebNet.Ref

open Cert.ReferenceIdeal Cert.ReferenceIdeal.Gen Cert.ReferenceIdeal.ReadP Idealize.ShloMosaic Idealize.ShloMosaic.ValueIdx

/-- Slice 0 of the second layer's weights, as a matrix, at `(q, j)`. -/
theorem w2_slice0 (x4 : (⟨S3x64x40, .f32⟩ : BufTy).Contents (Elt Ideal)) (q : Fin 64) (j : Fin 40) :
    val_main_v76 (F := Ideal) x4 (ix2 q j) = x4 (ix3 (0 : Fin 3) q j) := by
  rw [val_main_v76_apply, val_main_v75_apply]
  refine congrArg x4 (funext fun a => Fin.ext ?_)
  have hq := q.isLt
  have hj := j.isLt
  match a with
  | ⟨0, _⟩ => rfl
  | ⟨1, _⟩ => show (q.val * 40 + j.val) / 40 % 64 = q.val; omega
  | ⟨2, _⟩ => show (q.val * 40 + j.val) % 40 = j.val; omega

/-- Slice 1, at `(q, j)`. -/
theorem w2_slice1 (x4 : (⟨S3x64x40, .f32⟩ : BufTy).Contents (Elt Ideal)) (q : Fin 64) (j : Fin 40) :
    val_main_v92 (F := Ideal) x4 (ix2 q j) = x4 (ix3 (1 : Fin 3) q j) := by
  rw [val_main_v92_apply, val_main_v91_apply]
  refine congrArg x4 (funext fun a => Fin.ext ?_)
  have hq := q.isLt
  have hj := j.isLt
  match a with
  | ⟨0, _⟩ => rfl
  | ⟨1, _⟩ => show (q.val * 40 + j.val) / 40 % 64 = q.val; omega
  | ⟨2, _⟩ => show (q.val * 40 + j.val) % 40 = j.val; omega

/-- Slice 2, at `(q, j)`. -/
theorem w2_slice2 (x4 : (⟨S3x64x40, .f32⟩ : BufTy).Contents (Elt Ideal)) (q : Fin 64) (j : Fin 40) :
    val_main_v112 (F := Ideal) x4 (ix2 q j) = x4 (ix3 (2 : Fin 3) q j) := by
  rw [val_main_v112_apply, val_main_v111_apply]
  refine congrArg x4 (funext fun a => Fin.ext ?_)
  have hq := q.isLt
  have hj := j.isLt
  match a with
  | ⟨0, _⟩ => rfl
  | ⟨1, _⟩ => show (q.val * 40 + j.val) / 40 % 64 = q.val; omega
  | ⟨2, _⟩ => show (q.val * 40 + j.val) % 40 = j.val; omega

/-- The product of the hidden features with slice 0 is the first tap. -/
theorem l2_tap0 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal))
    (r : Fin 100000) (j : Fin 40) :
    val_main_v77 (F := Ideal) x0 x1 x2 x3 x4 (ix2 r j)
      = tap (n := 100000) (d := 64) (k := 40) (val_main_v74 (F := Ideal) x0 x1 x2 x3) x4 0 r j := by
  rw [val_main_v77_apply]
  unfold tap
  refine Finset.sum_congr rfl fun q _ => ?_
  rw [show lidx_main_v77 (ix2 r j) q = ix2 r q from funext fun a => by match a with | ⟨0, _⟩ => rfl | ⟨1, _⟩ => rfl,
    show ridx_main_v77 (ix2 r j) q = ix2 q j from funext fun a => by match a with | ⟨0, _⟩ => rfl | ⟨1, _⟩ => rfl,
    w2_slice0]

/-- The product of the once-propagated hidden features with slice 1 is the second tap. -/
theorem l2_tap1 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal))
    (r : Fin 100000) (j : Fin 40) :
    val_main_v93 (F := Ideal) x0 x1 x2 x3 x4 (ix2 r j)
      = tap (n := 100000) (d := 64) (k := 40) (val_main_v90 (F := Ideal) x0 x1 x2 x3) x4 1 r j := by
  rw [val_main_v93_apply]
  unfold tap
  refine Finset.sum_congr rfl fun q _ => ?_
  rw [show lidx_main_v93 (ix2 r j) q = ix2 r q from funext fun a => by match a with | ⟨0, _⟩ => rfl | ⟨1, _⟩ => rfl,
    show ridx_main_v93 (ix2 r j) q = ix2 q j from funext fun a => by match a with | ⟨0, _⟩ => rfl | ⟨1, _⟩ => rfl,
    w2_slice1]

/-- The product of the second Chebyshev term with slice 2 is the third tap. -/
theorem l2_tap2 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal))
    (r : Fin 100000) (j : Fin 40) :
    val_main_v113 (F := Ideal) x0 x1 x2 x3 x4 (ix2 r j)
      = tap (n := 100000) (d := 64) (k := 40) (val_main_v110 (F := Ideal) x0 x1 x2 x3) x4 2 r j := by
  rw [val_main_v113_apply]
  unfold tap
  refine Finset.sum_congr rfl fun q _ => ?_
  rw [show lidx_main_v113 (ix2 r j) q = ix2 r q from funext fun a => by match a with | ⟨0, _⟩ => rfl | ⟨1, _⟩ => rfl,
    show ridx_main_v113 (ix2 r j) q = ix2 q j from funext fun a => by match a with | ⟨0, _⟩ => rfl | ⟨1, _⟩ => rfl,
    w2_slice2]

/-- The second layer before its softmax, at `(r, j)`. -/
theorem l2_pre (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal)) (x5 : (⟨S40, .f32⟩ : BufTy).Contents (Elt Ideal))
    (r : Fin 100000) (j : Fin 40) :
    val_main_v117 (F := Ideal) x0 x1 x2 x3 x4 x5 (ix2 r j) = pre (n := 100000) (d := 64) (k := 40) (val_main_v74 (F := Ideal) x0 x1 x2 x3) (val_main_v90 (F := Ideal) x0 x1 x2 x3) (val_main_v110 (F := Ideal) x0 x1 x2 x3) x4 x5 r j := by
  rw [val_main_v117_apply, val_main_v114_apply, val_main_v94_apply, l2_tap0, l2_tap1, l2_tap2, val_main_v116_apply, val_main_v115_apply,
    show idx_main_v115 (idx_main_v116 (ix2 r j)) = ix1 j from funext fun a => by match a with | ⟨0, _⟩ => rfl]
  rfl

/-- The row's maximum as the reference computes it (a reduction, then the maximum with the reduction's own starting
    value) is the row's maximum. -/
theorem l2_max (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal)) (x5 : (⟨S40, .f32⟩ : BufTy).Contents (Elt Ideal))
    (r : Fin 100000) :
    val_main_call3_v2 (F := Ideal) x0 x1 x2 x3 x4 x5 (ix1 r) = rowMax (pre (n := 100000) (d := 64) (k := 40) (val_main_v74 (F := Ideal) x0 x1 x2 x3) (val_main_v90 (F := Ideal) x0 x1 x2 x3) (val_main_v110 (F := Ideal) x0 x1 x2 x3) x4 x5 r) := by
  have h0 : val_main_call3_v0 (F := Ideal) x0 x1 x2 x3 x4 x5 (ix1 r) = rowMax (pre (n := 100000) (d := 64) (k := 40) (val_main_v74 (F := Ideal) x0 x1 x2 x3) (val_main_v90 (F := Ideal) x0 x1 x2 x3) (val_main_v110 (F := Ideal) x0 x1 x2 x3) x4 x5 r) := by
    unfold val_main_call3_v0
    refine (Cert.RowOps.hostReduce_max_row _ _ reducesTo_S100000x40_S100000_d1 (by decide) h_S_ r).trans ?_
    unfold rowMax
    exact congrArg (fun f : Fin 40 → EReal => (Finset.univ : Finset (Fin 40)).fold max (Ideal.ofBits .f32 0xFF800000#32) f)
      (funext fun j' => l2_pre x0 x1 x2 x3 x4 x5 r j')
  rw [val_main_call3_v2_apply, val_main_call3_v1_apply, val_main_call3_cst_0_apply, h0]
  exact max_rowMax _

/-- The shifted value at `(r, j)`. -/
theorem l2_shift (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal)) (x5 : (⟨S40, .f32⟩ : BufTy).Contents (Elt Ideal))
    (r : Fin 100000) (j : Fin 40) :
    val_main_call3_v5 (F := Ideal) x0 x1 x2 x3 x4 x5 (ix2 r j) = pre (n := 100000) (d := 64) (k := 40) (val_main_v74 (F := Ideal) x0 x1 x2 x3) (val_main_v90 (F := Ideal) x0 x1 x2 x3) (val_main_v110 (F := Ideal) x0 x1 x2 x3) x4 x5 r j - rowMax (pre (n := 100000) (d := 64) (k := 40) (val_main_v74 (F := Ideal) x0 x1 x2 x3) (val_main_v90 (F := Ideal) x0 x1 x2 x3) (val_main_v110 (F := Ideal) x0 x1 x2 x3) x4 x5 r) := by
  rw [val_main_call3_v5_apply, val_main_call3_v4_apply, val_main_call3_v3_apply, l2_pre,
    show idx_main_call3_v3 (idx_main_call3_v4 (ix2 r j)) = ix1 r from funext fun a => by match a with | ⟨0, _⟩ => rfl,
    l2_max]
  rfl

/-- The logarithm of the row's sum of exponentials, broadcast back over the row, at `(r, j)`. -/
theorem l2_lse (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal)) (x5 : (⟨S40, .f32⟩ : BufTy).Contents (Elt Ideal))
    (r : Fin 100000) (j : Fin 40) :
    val_main_call3_v10 (F := Ideal) x0 x1 x2 x3 x4 x5 (ix2 r j)
      = Ideal.log (∑ j' : Fin 40, Ideal.exp (pre (n := 100000) (d := 64) (k := 40) (val_main_v74 (F := Ideal) x0 x1 x2 x3) (val_main_v90 (F := Ideal) x0 x1 x2 x3) (val_main_v110 (F := Ideal) x0 x1 x2 x3) x4 x5 r j' - rowMax (pre (n := 100000) (d := 64) (k := 40) (val_main_v74 (F := Ideal) x0 x1 x2 x3) (val_main_v90 (F := Ideal) x0 x1 x2 x3) (val_main_v110 (F := Ideal) x0 x1 x2 x3) x4 x5 r))) := by
  rw [val_main_call3_v10_apply, val_main_call3_v9_apply, val_main_call3_v8_apply, val_main_call3_v7_apply, val_main_call3_cst_1_apply]
  show Ideal.log (Ideal.ofBits .f32 0x00000000#32 + _) = _
  rw [Ideal.ofBits_zero_f32, zero_add]
  refine congrArg Ideal.log (Finset.sum_congr rfl fun j' _ => ?_)
  rw [val_main_call3_v6_apply,
    show idx_main_call3_v7 (idx_main_call3_v8 (idx_main_call3_v10 (ix2 r j))) j' = ix2 r j' from
      funext fun a => by match a with | ⟨0, _⟩ => rfl | ⟨1, _⟩ => rfl,
    l2_shift]
  rfl

/-- The reference's result is the log-softmax layer of the hidden features, their two propagated forms, the second
    weights and the second bias. -/
theorem layer2 (x0 : (⟨S100000x128, .f32⟩ : BufTy).Contents (Elt Ideal)) (x1 : (⟨S2x1600000, .i32⟩ : BufTy).Contents (Elt Ideal))
    (x2 : (⟨S3x128x64, .f32⟩ : BufTy).Contents (Elt Ideal)) (x3 : (⟨S64, .f32⟩ : BufTy).Contents (Elt Ideal))
    (x4 : (⟨S3x64x40, .f32⟩ : BufTy).Contents (Elt Ideal)) (x5 : (⟨S40, .f32⟩ : BufTy).Contents (Elt Ideal)) :
    val_main_v118 (F := Ideal) x0 x1 x2 x3 x4 x5
      = logSoftmaxLayer (n := 100000) (d := 64) (k := 40) (val_main_v74 (F := Ideal) x0 x1 x2 x3) (val_main_v90 (F := Ideal) x0 x1 x2 x3) (val_main_v110 (F := Ideal) x0 x1 x2 x3) x4 x5 := by
  funext i
  obtain ⟨r, j, rfl⟩ : ∃ (r : Fin 100000) (j : Fin 40), i = ix2 r j := ⟨i 0, i 1, eq_ix2 i⟩
  rw [logSoftmaxLayer_ix2, val_main_v118_apply, l2_shift, l2_lse]
  rfl

end Cert.ChebNet.Ref

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Body1.lean ====
/-
  The first kernel's body, read at an entry of its block.

  At a grid point the body loads a `[5000, 128]` block of each of the three feature matrices, the three `[1, 128, 64]`
  slices of the weight tensor and the bias, multiplies each feature block by its weight slice (viewed as a `[128, 64]`
  matrix) into a zero accumulator, adds the three products left to right, adds the bias along the rows and takes the
  maximum with zero. On the extended reals the narrowing of the operands is the identity, so at `(p, j)` the result is

      max ((Σ_q x0(p,q)·w0(0,q,j) + Σ_q x1(p,q)·w1(0,q,j)) + Σ_q x2(p,q)·w2(0,q,j) + b(j)) 0.
-/
import proofs.«113783_j2903397892894_1_alg».proof.Proof.Gen.KernelIdeal.Skeleton
import proofs.«113783_j2903397892894_1_alg».proof.Proof.LibPlainMatmul
import Idealize.ShloMosaic.Lib.ValueLayout
import Idealize.ShloMosaic.Lib.Pipeline.Value

noncomputable section

namespace Cert.ChebNet.Body1

open Cert.KernelIdeal Cert.KernelIdeal.Gen Idealize.ShloMosaic Idealize.ShloMosaic.ValueIdx

/-- One product of the body at `(p, j)`: the sum over the shared axis of the block's row against the slice's column. -/
theorem product_apply (x : FVec Ideal S5000x128 .f32) (w : FVec Ideal S1x128x64 .f32) (p : Fin 5000) (j : Fin 64) :
    matmul dot_S5000x128_S128x64_S5000x64_1_0_0_1_n_n none (truncf .bf16 x bitsLt_bf16_f32)
        (truncf .bf16 (shapeCast S128x64 w shapeCasts_S1x128x64_S128x64) bitsLt_bf16_f32)
        (constant (F := Ideal) S5000x64 .f32 0x00000000#32) (ix2 p j)
      = ∑ q : Fin 128, x (ix2 p q) * w (ix3 (0 : Fin 1) q j) := by
  refine (Cert.PointConv.plainMatmul_zero_apply dot_S5000x128_S128x64_S5000x64_1_0_0_1_n_n_wf none _ _ p j).trans ?_
  refine Finset.sum_congr rfl fun q _ => ?_
  exact congrArg (x (ix2 p q) * ·) (shapeCast_1ab_ab_apply w shapeCasts_S1x128x64_S128x64 q j)

/-- The bias, cast to a row and broadcast over the block's rows, at `(p, j)`. -/
theorem bias_apply (b : FVec Ideal S64 .f32) (p : Fin 5000) (j : Fin 64) :
    broadcastTo S5000x64 (shapeCast S1x64 b shapeCasts_S64_S1x64) broadcasts_S1x64_S5000x64 (ix2 p j) = b (ix1 j) :=
  (broadcastTo_1b_ab_apply _ broadcasts_S1x64_S5000x64 p j).trans (shapeCast_a_1a_apply b shapeCasts_S64_S1x64 0 j)

/-- The body's result at `(p, j)`. -/
theorem payload_apply (v0 v2 v5 : FVec Ideal S5000x128 .f32) (v8 v11 v14 : FVec Ideal S1x128x64 .f32) (v22 : FVec Ideal S64 .f32)
    (p : Fin 5000) (j : Fin 64) :
    k0_pay1 (F := Ideal) v0 v2 v5 v8 v11 v14 v22 (ix2 p j)
      = max ((∑ q : Fin 128, v0 (ix2 p q) * v8 (ix3 (0 : Fin 1) q j)) + (∑ q : Fin 128, v2 (ix2 p q) * v11 (ix3 (0 : Fin 1) q j))
          + (∑ q : Fin 128, v5 (ix2 p q) * v14 (ix3 (0 : Fin 1) q j)) + v22 (ix1 j)) (Ideal.ofBits .f32 0x00000000#32) := by
  unfold k0_pay1
  rw [shapeCast_self, shapeCast_self]
  show max (_ + _ + _ + _) _ = _
  rw [product_apply, product_apply, product_apply, bias_apply]
  rfl

end Cert.ChebNet.Body1

end
-- ==== Proof.Region1.lean ====
/-
  The first kernel's output array is the rectified three-tap layer of the arrays its windows read.

  The grid has twenty points; point `t` reads rows `5000·t … 5000·t + 4999` of each of the three feature matrices, the
  whole weight tensor and the whole bias, and writes the same rows of the output. An entry `(p, j)` of the block the
  point writes is the body's result there, which depends on row `p` of the three feature blocks only; row `p` of block
  `t` is row `5000·t + p` of the array. So the block is the restriction of ONE function of the arrays, the layer
  `Cert.ChebNet.reluLayer`, and the twenty blocks tile the output's rows: the output array ends holding that function.
  Stated for any contents `V` of the buffers when the region is entered.
-/
import proofs.«113783_j2903397892894_1_alg».proof.Proof.Gen.KernelIdeal.Frame
import proofs.«113783_j2903397892894_1_alg».proof.Proof.Body1
import proofs.«113783_j2903397892894_1_alg».proof.Proof.Spec
import Idealize.ShloMosaic.Lib.Pipeline.Value

noncomputable section

namespace Cert.ChebNet.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the three feature windows move with the output window along the rows and stay at
    column block zero; the weights and the bias stay at block zero; the output's row block is below twenty. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) < 20 ∧ win0_5.index t (1 : Fin 2) = 0 :=
  (by decide +kernel : ∀ t : Fin grid0.N, _)

/-- Every row block is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- The three slices the body loads from the weight block, at `(0, q, j)`: the block at `(s, q, j)`. -/
theorem slices_apply (x3 : Vec Ideal S3x128x64 .f32) (q : Fin 128) (j : Fin 64) :
    View.ld x3 r0_1 (ix3 (0 : Fin 1) q j) = x3 (ix3 (0 : Fin 3) q j)
    ∧ View.ld x3 r0_2 (ix3 (0 : Fin 1) q j) = x3 (ix3 (1 : Fin 3) q j)
    ∧ View.ld x3 r0_3 (ix3 (0 : Fin 1) q j) = x3 (ix3 (2 : Fin 3) q j) := by
  refine ⟨congrArg x3 (funext fun a => Fin.ext ?_), congrArg x3 (funext fun a => Fin.ext ?_),
    congrArg x3 (funext fun a => Fin.ext ?_)⟩
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 0 + 1 * j.val = j.val; omega

/-- ONE POINT: if the three feature blocks are rows `5000·T + p` of three arrays and the weight and bias blocks are the
    whole weight and bias arrays, the body's result at `(p, j)` is the layer of those arrays at `(5000·T + p, j)`. -/
theorem point_eq (A0 A1 A2 : S100000x128.Idx → EReal) (Wt : S3x128x64.Idx → EReal) (b : S64.Idx → EReal)
    (x0 x1 x2 : FVec Ideal S5000x128 .f32) (x3 : Vec Ideal S3x128x64 .f32) (x4 : FVec Ideal S64 .f32)
    (T : Nat) (hT : T < 20)
    (h0 : ∀ (p : Fin 5000) (q : Fin 128), x0 (ix2 p q) = A0 (ix2 ⟨T * 5000 + p.val, by have := p.isLt; omega⟩ q))
    (h1 : ∀ (p : Fin 5000) (q : Fin 128), x1 (ix2 p q) = A1 (ix2 ⟨T * 5000 + p.val, by have := p.isLt; omega⟩ q))
    (h2 : ∀ (p : Fin 5000) (q : Fin 128), x2 (ix2 p q) = A2 (ix2 ⟨T * 5000 + p.val, by have := p.isLt; omega⟩ q))
    (h3 : ∀ (s : Fin 3) (q : Fin 128) (j : Fin 64), x3 (ix3 s q j) = Wt (ix3 s q j))
    (h4 : ∀ j : Fin 64, x4 (ix1 j) = b (ix1 j)) (p : Fin 5000) (j : Fin 64) :
    k0_pay1 (F := Ideal) x0 x1 x2 (View.ld x3 r0_1) (View.ld x3 r0_2) (View.ld x3 r0_3) x4 (ix2 p j)
      = reluLayer (n := 100000) (d := 128) (k := 64) A0 A1 A2 Wt b (ix2 ⟨T * 5000 + p.val, by have := p.isLt; omega⟩ j) := by
  rw [Body1.payload_apply, reluLayer_ix2]
  unfold reluAt pre tap
  simp only [h0, h1, h2, h4, (slices_apply x3 _ j).1, (slices_apply x3 _ j).2.1, (slices_apply x3 _ j).2.2, h3]

/-- Row `p` of the first feature window's block at point `t` is row `5000·(block index) + p` of its array. -/
theorem rows0 (c : Dev nD) (t : Fin cfg0.N) (p : Fin 5000) (q : Fin 128)
    (e : win0_0.index t (0 : Fin 2) = win0_5.index t (0 : Fin 2)) (e' : win0_0.index t (1 : Fin 2) = 0)
    (hlt : win0_5.index t (0 : Fin 2) < 20) :
    iblk0 V c 0 t (ix2 p q)
      = V c main_arg0 (ix2 ⟨win0_5.index t (0 : Fin 2) * 5000 + p.val, by have := p.isLt; omega⟩ q) := by
  show V c main_arg0 (((cfg0.win 0).blk t).view.emb (ix2 p q)) = _
  refine congrArg (V c main_arg0) (funext fun a => Fin.ext ?_)
  match a with
  | ⟨0, _⟩ => show win0_0.index t (0 : Fin 2) * 5000 + 1 * p.val = win0_5.index t (0 : Fin 2) * 5000 + p.val; omega
  | ⟨1, _⟩ => show win0_0.index t (1 : Fin 2) * 128 + 1 * q.val = q.val; omega

/-- The same for the second feature window. -/
theorem rows1 (c : Dev nD) (t : Fin cfg0.N) (p : Fin 5000) (q : Fin 128)
    (e : win0_1.index t (0 : Fin 2) = win0_5.index t (0 : Fin 2)) (e' : win0_1.index t (1 : Fin 2) = 0)
    (hlt : win0_5.index t (0 : Fin 2) < 20) :
    iblk0 V c 1 t (ix2 p q)
      = V c main_v43 (ix2 ⟨win0_5.index t (0 : Fin 2) * 5000 + p.val, by have := p.isLt; omega⟩ q) := by
  show V c main_v43 (((cfg0.win 1).blk t).view.emb (ix2 p q)) = _
  refine congrArg (V c main_v43) (funext fun a => Fin.ext ?_)
  match a with
  | ⟨0, _⟩ => show win0_1.index t (0 : Fin 2) * 5000 + 1 * p.val = win0_5.index t (0 : Fin 2) * 5000 + p.val; omega
  | ⟨1, _⟩ => show win0_1.index t (1 : Fin 2) * 128 + 1 * q.val = q.val; omega

/-- The same for the third feature window. -/
theorem rows2 (c : Dev nD) (t : Fin cfg0.N) (p : Fin 5000) (q : Fin 128)
    (e : win0_2.index t (0 : Fin 2) = win0_5.index t (0 : Fin 2)) (e' : win0_2.index t (1 : Fin 2) = 0)
    (hlt : win0_5.index t (0 : Fin 2) < 20) :
    iblk0 V c 2 t (ix2 p q)
      = V c main_v59 (ix2 ⟨win0_5.index t (0 : Fin 2) * 5000 + p.val, by have := p.isLt; omega⟩ q) := by
  show V c main_v59 (((cfg0.win 2).blk t).view.emb (ix2 p q)) = _
  refine congrArg (V c main_v59) (funext fun a => Fin.ext ?_)
  match a with
  | ⟨0, _⟩ => show win0_2.index t (0 : Fin 2) * 5000 + 1 * p.val = win0_5.index t (0 : Fin 2) * 5000 + p.val; omega
  | ⟨1, _⟩ => show win0_2.index t (1 : Fin 2) * 128 + 1 * q.val = q.val; omega

/-- The weight window's block is the whole weight array. -/
theorem weights (c : Dev nD) (t : Fin cfg0.N) (s : Fin 3) (q : Fin 128) (j : Fin 64)
    (e0 : win0_3.index t (0 : Fin 3) = 0) (e1 : win0_3.index t (1 : Fin 3) = 0) (e2 : win0_3.index t (2 : Fin 3) = 0) :
    iblk0 V c 3 t (ix3 s q j) = V c main_arg2 (ix3 s q j) := by
  show V c main_arg2 (((cfg0.win 3).blk t).view.emb (ix3 s q j)) = _
  refine congrArg (V c main_arg2) (funext fun a => Fin.ext ?_)
  match a with
  | ⟨0, _⟩ => show win0_3.index t (0 : Fin 3) * 3 + 1 * s.val = s.val; omega
  | ⟨1, _⟩ => show win0_3.index t (1 : Fin 3) * 128 + 1 * q.val = q.val; omega
  | ⟨2, _⟩ => show win0_3.index t (2 : Fin 3) * 64 + 1 * j.val = j.val; omega

/-- The bias window's block is the whole bias array. -/
theorem bias (c : Dev nD) (t : Fin cfg0.N) (j : Fin 64) (e0 : win0_4.index t (0 : Fin 1) = 0) :
    iblk0 V c 4 t (ix1 j) = V c main_arg3 (ix1 j) := by
  show V c main_arg3 (((cfg0.win 4).blk t).view.emb (ix1 j)) = _
  refine congrArg (V c main_arg3) (funext fun a => Fin.ext ?_)
  match a with
  | ⟨0, _⟩ => show win0_4.index t (0 : Fin 1) * 64 + 1 * j.val = j.val; omega

/-- WHAT POINT `t` WRITES BACK is block `t` of the layer of the arrays as the region finds them. -/
theorem flushed_eq (c : Dev nD) (t : Fin cfg0.N) :
    (dat0 (F := Ideal) V c).flushed 5 t = ((cfg0.win 5).blk t).view.read (Elt Ideal)
      (reluLayer (n := 100000) (d := 128) (k := 64) (V c main_arg0) (V c main_v43) (V c main_v59) (V c main_arg2) (V c main_arg3)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S64) zeros1]
  obtain ⟨e00, e01, e10, e11, e20, e21, e30, e31, e32, e40, hlt, e51⟩ := index_facts t
  refine funext fun (y : S5000x64.Idx) => ?_
  obtain ⟨p, j, rfl⟩ : ∃ (p : Fin 5000) (j : Fin 64), y = ix2 p j := ⟨y 0, y 1, eq_ix2 y⟩
  have hemb : ((cfg0.win 5).blk t).view.emb (ix2 p j)
      = ix2 (⟨win0_5.index t (0 : Fin 2) * 5000 + p.val, by have := p.isLt; omega⟩ : Fin 100000) j := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * j.val = j.val; omega
  show k0_pay1 (iblk0 V c 0 t) (iblk0 V c 1 t) (iblk0 V c 2 t) (View.ld (iblk0 V c 3 t) r0_1) (View.ld (iblk0 V c 3 t) r0_2)
      (View.ld (iblk0 V c 3 t) r0_3) (iblk0 V c 4 t) (ix2 p j)
    = reluLayer (n := 100000) (d := 128) (k := 64) (V c main_arg0) (V c main_v43) (V c main_v59) (V c main_arg2) (V c main_arg3)
        (((cfg0.win 5).blk t).view.emb (ix2 p j))
  rw [hemb]
  exact point_eq (V c main_arg0) (V c main_v43) (V c main_v59) (V c main_arg2) (V c main_arg3)
    (iblk0 V c 0 t) (iblk0 V c 1 t) (iblk0 V c 2 t) (iblk0 V c 3 t) (iblk0 V c 4 t) (win0_5.index t (0 : Fin 2)) hlt
    (fun p q => rows0 V c t p q e00 e01 hlt) (fun p q => rows1 V c t p q e10 e11 hlt) (fun p q => rows2 V c t p q e20 e21 hlt)
    (fun s q j => weights V c t s q j e30 e31 e32) (fun j => bias V c t j e40) p j

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v60).slice (win0_5.rect t)).set ↔ _
  rw [View.set_slice_whole, Rect.mem_set_unit]
  exact Iff.rfl

/-- The twenty blocks tile the output's rows: row `r` is in the block of the point whose row block is `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the region: the rectified layer of the five arrays the windows read, as the region found
    them. -/
theorem array_eq (c : Dev nD) :
    (dat0 (F := Ideal) V c).arrAt 5 cfg0.N
      = reluLayer (n := 100000) (d := 128) (k := 64) (V c main_arg0) (V c main_v43) (V c main_v59) (V c main_arg2) (V c main_arg3) :=
  (dat0 (F := Ideal) V c).arrAt_eq_of_cover 5 _ (fun t _ => flushed_eq V c t) cover

end Cert.ChebNet.Region1

end
-- ==== Proof.Body2.lean ====
/-
  The second kernel's body, read at an entry of its block.

  At a grid point the body loads a `[5000, 64]` block of each of the three hidden-feature matrices, the three `[1, 64, 40]`
  slices of the weight tensor and the bias; forms `a = (x0·w0 + x1·w1) + x2·w2 + b` as the first kernel does; takes each
  row's maximum `M`, the row's sum of `exp (a − M)`, and stores `(a − M) − log` of that sum. On the extended reals, at
  `(p, j)`, with `a(p, ·)` the row:  `(a(p,j) − M(p)) − log Σ_j' exp (a(p,j') − M(p))`, `M(p)` the fold of `max` over the
  row from the value of the reduction's starting pattern.
-/
import proofs.«113783_j2903397892894_1_alg».proof.Proof.Gen.KernelIdeal.Skeleton
import proofs.«113783_j2903397892894_1_alg».proof.Proof.LibPlainMatmul
import proofs.«113783_j2903397892894_1_alg».proof.Proof.LibRowOps
import Idealize.ShloMosaic.Lib.ValueLayout
import Idealize.ShloMosaic.Lib.Pipeline.Value

noncomputable section

namespace Cert.ChebNet.Body2

open Cert.KernelIdeal Cert.KernelIdeal.Gen Idealize.ShloMosaic Idealize.ShloMosaic.ValueIdx

/-- One product of the body at `(p, j)`: the sum over the shared axis of the block's row against the slice's column. -/
theorem product_apply (x : FVec Ideal S5000x64 .f32) (w : FVec Ideal S1x64x40 .f32) (p : Fin 5000) (j : Fin 40) :
    matmul dot_S5000x64_S64x40_S5000x40_1_0_0_1_n_n none (truncf .bf16 x bitsLt_bf16_f32)
        (truncf .bf16 (shapeCast S64x40 w shapeCasts_S1x64x40_S64x40) bitsLt_bf16_f32)
        (constant (F := Ideal) S5000x40 .f32 0x00000000#32) (ix2 p j)
      = ∑ q : Fin 64, x (ix2 p q) * w (ix3 (0 : Fin 1) q j) := by
  refine (Cert.PointConv.plainMatmul_zero_apply dot_S5000x64_S64x40_S5000x40_1_0_0_1_n_n_wf none _ _ p j).trans ?_
  refine Finset.sum_congr rfl fun q _ => ?_
  exact congrArg (x (ix2 p q) * ·) (shapeCast_1ab_ab_apply w shapeCasts_S1x64x40_S64x40 q j)

/-- The bias, cast to a row and broadcast over the block's rows, at `(p, j)`. -/
theorem bias_apply (b : FVec Ideal S40 .f32) (p : Fin 5000) (j : Fin 40) :
    broadcastTo S5000x40 (shapeCast S1x40 b shapeCasts_S40_S1x40) broadcasts_S1x40_S5000x40 (ix2 p j) = b (ix1 j) :=
  (broadcastTo_1b_ab_apply _ broadcasts_S1x40_S5000x40 p j).trans (shapeCast_a_1a_apply b shapeCasts_S40_S1x40 0 j)

/-- The value before the softmax at `(p, j)`, as a function of the loaded blocks. -/
def preAt (v0 v3 v6 : FVec Ideal S5000x64 .f32) (v9 v12 v15 : FVec Ideal S1x64x40 .f32) (v23 : FVec Ideal S40 .f32)
    (p : Fin 5000) (j : Fin 40) : EReal :=
  (∑ q : Fin 64, v0 (ix2 p q) * v9 (ix3 (0 : Fin 1) q j)) + (∑ q : Fin 64, v3 (ix2 p q) * v12 (ix3 (0 : Fin 1) q j))
    + (∑ q : Fin 64, v6 (ix2 p q) * v15 (ix3 (0 : Fin 1) q j)) + v23 (ix1 j)

/-- The body's value before the softmax, at `(p, j)`. -/
theorem pre_apply (v0 v3 v6 : FVec Ideal S5000x64 .f32) (v9 v12 v15 : FVec Ideal S1x64x40 .f32) (v23 : FVec Ideal S40 .f32)
    (p : Fin 5000) (j : Fin 40) :
    k1_pay2 (F := Ideal) v0 v3 v6 v9 v12 v15 v23 (ix2 p j) = preAt v0 v3 v6 v9 v12 v15 v23 p j := by
  unfold k1_pay2 preAt
  rw [shapeCast_self, shapeCast_self, shapeCast_self]
  show (_ + _ + _ + _ : EReal) = _
  rw [product_apply, product_apply, product_apply, bias_apply]

/-- The row's maximum, kept as a column, at row `p`. -/
theorem rowmax_apply (v0 v3 v6 : FVec Ideal S5000x64 .f32) (v9 v12 v15 : FVec Ideal S1x64x40 .f32) (v23 : FVec Ideal S40 .f32)
    (p : Fin 5000) (u : Fin 1) :
    k1_pay3 (F := Ideal) v0 v3 v6 v9 v12 v15 v23 (ix2 p u)
      = (Finset.univ : Finset (Fin 40)).fold max (Ideal.ofBits .f32 0xFF800000#32) (fun j' => preAt v0 v3 v6 v9 v12 v15 v23 p j') := by
  unfold k1_pay3
  refine (Cert.RowOps.shapeCast_a_a1_apply _ shapeCasts_S5000_S5000x1 p u).trans ?_
  refine (Cert.RowOps.multiReduction_max_row (k1_pay2 (F := Ideal) v0 v3 v6 v9 v12 v15 v23) 0xFF800000#32 reduces_S5000x40_S5000
    (.inl rfl) rfl p).trans ?_
  exact congrArg (fun f : Fin 40 → EReal => (Finset.univ : Finset (Fin 40)).fold max (Ideal.ofBits .f32 0xFF800000#32) f)
    (funext fun j' => pre_apply v0 v3 v6 v9 v12 v15 v23 p j')

/-- The shifted value at `(p, j)`. -/
theorem shift_apply (v0 v3 v6 : FVec Ideal S5000x64 .f32) (v9 v12 v15 : FVec Ideal S1x64x40 .f32) (v23 : FVec Ideal S40 .f32)
    (p : Fin 5000) (j : Fin 40) :
    k1_pay4 (F := Ideal) v0 v3 v6 v9 v12 v15 v23 (ix2 p j)
      = preAt v0 v3 v6 v9 v12 v15 v23 p j
        - (Finset.univ : Finset (Fin 40)).fold max (Ideal.ofBits .f32 0xFF800000#32) (fun j' => preAt v0 v3 v6 v9 v12 v15 v23 p j') := by
  unfold k1_pay4
  show k1_pay2 (F := Ideal) v0 v3 v6 v9 v12 v15 v23 (ix2 p j)
      - broadcastTo S5000x40 (k1_pay3 (F := Ideal) v0 v3 v6 v9 v12 v15 v23) broadcasts_S5000x1_S5000x40 (ix2 p j) = _
  rw [Cert.RowOps.broadcastTo_a1_ab_apply, rowmax_apply, pre_apply]

/-- The logarithm of the row's sum of exponentials, broadcast back over the row, at `(p, j)`. -/
theorem lse_apply (v0 v3 v6 : FVec Ideal S5000x64 .f32) (v9 v12 v15 : FVec Ideal S1x64x40 .f32) (v23 : FVec Ideal S40 .f32)
    (p : Fin 5000) (j : Fin 40) :
    k1_pay5 (F := Ideal) v0 v3 v6 v9 v12 v15 v23 (ix2 p j)
      = Ideal.log (∑ j' : Fin 40, Ideal.exp (preAt v0 v3 v6 v9 v12 v15 v23 p j'
          - (Finset.univ : Finset (Fin 40)).fold max (Ideal.ofBits .f32 0xFF800000#32) (fun j'' => preAt v0 v3 v6 v9 v12 v15 v23 p j''))) := by
  unfold k1_pay5
  refine (Cert.RowOps.broadcastTo_a1_ab_apply _ broadcasts_S5000x1_S5000x40 p j).trans ?_
  show Ideal.log (shapeCast S5000x1 _ shapeCasts_S5000_S5000x1 (ix2 p (0 : Fin 1))) = _
  refine congrArg Ideal.log ?_
  refine (Cert.RowOps.shapeCast_a_a1_apply _ shapeCasts_S5000_S5000x1 p 0).trans ?_
  refine (Cert.RowOps.multiReduction_add_row _ 0x00000000#32 reduces_S5000x40_S5000 (.inl rfl) rfl p).trans ?_
  refine Finset.sum_congr rfl fun j' _ => ?_
  show Ideal.exp (k1_pay2 (F := Ideal) v0 v3 v6 v9 v12 v15 v23 (ix2 p j')
      - broadcastTo S5000x40 (k1_pay3 (F := Ideal) v0 v3 v6 v9 v12 v15 v23) broadcasts_S5000x1_S5000x40 (ix2 p j')) = _
  rw [Cert.RowOps.broadcastTo_a1_ab_apply, rowmax_apply, pre_apply]

/-- The body's result at `(p, j)`. -/
theorem payload_apply (v0 v3 v6 : FVec Ideal S5000x64 .f32) (v9 v12 v15 : FVec Ideal S1x64x40 .f32) (v23 : FVec Ideal S40 .f32)
    (p : Fin 5000) (j : Fin 40) :
    k1_pay1 (F := Ideal) (k1_pay4 v0 v3 v6 v9 v12 v15 v23) (k1_pay5 v0 v3 v6 v9 v12 v15 v23) (ix2 p j)
      = (preAt v0 v3 v6 v9 v12 v15 v23 p j
          - (Finset.univ : Finset (Fin 40)).fold max (Ideal.ofBits .f32 0xFF800000#32) (fun j' => preAt v0 v3 v6 v9 v12 v15 v23 p j'))
        - Ideal.log (∑ j' : Fin 40, Ideal.exp (preAt v0 v3 v6 v9 v12 v15 v23 p j'
          - (Finset.univ : Finset (Fin 40)).fold max (Ideal.ofBits .f32 0xFF800000#32) (fun j'' => preAt v0 v3 v6 v9 v12 v15 v23 p j''))) := by
  show k1_pay4 (F := Ideal) v0 v3 v6 v9 v12 v15 v23 (ix2 p j) - k1_pay5 (F := Ideal) v0 v3 v6 v9 v12 v15 v23 (ix2 p j) = _
  rw [shift_apply, lse_apply]

end Cert.ChebNet.Body2

end
-- ==== Proof.Region2.lean ====
/-
  The second kernel's output array is the row-wise log-softmax layer of the arrays its windows read.

  As for the first kernel, the grid has twenty points and point `t` reads rows `5000·t … 5000·t + 4999` of each of the
  three hidden-feature matrices, the whole weight tensor and the whole bias, and writes the same rows of the output. The
  body's result at `(p, j)` depends on row `p` of the three blocks only — the maximum and the sum of the softmax run
  along that row —, and row `p` of block `t` is row `5000·t + p` of the array. So each block is the restriction of ONE
  function of the arrays, the layer `Cert.ChebNet.logSoftmaxLayer`, and the twenty blocks tile the output's rows.
  Stated for any contents `V` of the buffers when the region is entered.
-/
import proofs.«113783_j2903397892894_1_alg».proof.Proof.Gen.KernelIdeal.Frame
import proofs.«113783_j2903397892894_1_alg».proof.Proof.Body2
import proofs.«113783_j2903397892894_1_alg».proof.Proof.Spec
import Idealize.ShloMosaic.Lib.Pipeline.Value

noncomputable section

namespace Cert.ChebNet.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the three feature windows move with the output window along the rows and stay at
    column block zero; the weights and the bias stay at block zero; the output's row block is below twenty. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) < 20 ∧ win1_5.index t (1 : Fin 2) = 0 :=
  (by decide +kernel : ∀ t : Fin grid1.N, _)

/-- Every row block is some point's. -/
theorem index_onto : ∀ q0 : Fin 20, ∃ t : Fin cfg1.N, win1_5.index t = ![q0.val, 0] :=
  (by decide +kernel : ∀ q0 : Fin 20, ∃ t : Fin grid1.N, win1_5.index t = ![q0.val, 0])

/-- The three slices the body loads from the weight block, at `(0, q, j)`: the block at `(s, q, j)`. -/
theorem slices_apply (x3 : Vec Ideal S3x64x40 .f32) (q : Fin 64) (j : Fin 40) :
    View.ld x3 r1_1 (ix3 (0 : Fin 1) q j) = x3 (ix3 (0 : Fin 3) q j)
    ∧ View.ld x3 r1_2 (ix3 (0 : Fin 1) q j) = x3 (ix3 (1 : Fin 3) q j)
    ∧ View.ld x3 r1_3 (ix3 (0 : Fin 1) q j) = x3 (ix3 (2 : Fin 3) q j) := by
  refine ⟨congrArg x3 (funext fun a => Fin.ext ?_), congrArg x3 (funext fun a => Fin.ext ?_),
    congrArg x3 (funext fun a => Fin.ext ?_)⟩
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 0 + 1 * j.val = j.val; omega

/-- ONE POINT: if the three feature blocks are rows `5000·T + p` of three arrays and the weight and bias blocks are the
    whole weight and bias arrays, the body's result at `(p, j)` is the layer of those arrays at `(5000·T + p, j)`. -/
theorem point_eq (A0 A1 A2 : S100000x64.Idx → EReal) (Wt : S3x64x40.Idx → EReal) (b : S40.Idx → EReal)
    (x0 x1 x2 : FVec Ideal S5000x64 .f32) (x3 : Vec Ideal S3x64x40 .f32) (x4 : FVec Ideal S40 .f32)
    (T : Nat) (hT : T < 20)
    (h0 : ∀ (p : Fin 5000) (q : Fin 64), x0 (ix2 p q) = A0 (ix2 ⟨T * 5000 + p.val, by have := p.isLt; omega⟩ q))
    (h1 : ∀ (p : Fin 5000) (q : Fin 64), x1 (ix2 p q) = A1 (ix2 ⟨T * 5000 + p.val, by have := p.isLt; omega⟩ q))
    (h2 : ∀ (p : Fin 5000) (q : Fin 64), x2 (ix2 p q) = A2 (ix2 ⟨T * 5000 + p.val, by have := p.isLt; omega⟩ q))
    (h3 : ∀ (s : Fin 3) (q : Fin 64) (j : Fin 40), x3 (ix3 s q j) = Wt (ix3 s q j))
    (h4 : ∀ j : Fin 40, x4 (ix1 j) = b (ix1 j)) (p : Fin 5000) (j : Fin 40) :
    k1_pay1 (F := Ideal) (k1_pay4 x0 x1 x2 (View.ld x3 r1_1) (View.ld x3 r1_2) (View.ld x3 r1_3) x4)
        (k1_pay5 x0 x1 x2 (View.ld x3 r1_1) (View.ld x3 r1_2) (View.ld x3 r1_3) x4) (ix2 p j)
      = logSoftmaxLayer (n := 100000) (d := 64) (k := 40) A0 A1 A2 Wt b (ix2 ⟨T * 5000 + p.val, by have := p.isLt; omega⟩ j) := by
  rw [Body2.payload_apply, logSoftmaxLayer_ix2]
  unfold logSoftmaxAt rowMax pre tap Body2.preAt
  simp only [h0, h1, h2, h4, fun (q : Fin 64) (j' : Fin 40) => (slices_apply x3 q j').1, fun (q : Fin 64) (j' : Fin 40) => (slices_apply x3 q j').2.1,
    fun (q : Fin 64) (j' : Fin 40) => (slices_apply x3 q j').2.2, h3]

/-- Row `p` of the first feature window's block at point `t` is row `5000·(block index) + p` of its array. -/
theorem rows0 (c : Dev nD) (t : Fin cfg1.N) (p : Fin 5000) (q : Fin 64)
    (e : win1_0.index t (0 : Fin 2) = win1_5.index t (0 : Fin 2)) (e' : win1_0.index t (1 : Fin 2) = 0)
    (hlt : win1_5.index t (0 : Fin 2) < 20) :
    iblk1 V c 0 t (ix2 p q)
      = V c main_v60 (ix2 ⟨win1_5.index t (0 : Fin 2) * 5000 + p.val, by have := p.isLt; omega⟩ q) := by
  show V c main_v60 (((cfg1.win 0).blk t).view.emb (ix2 p q)) = _
  refine congrArg (V c main_v60) (funext fun a => Fin.ext ?_)
  match a with
  | ⟨0, _⟩ => show win1_0.index t (0 : Fin 2) * 5000 + 1 * p.val = win1_5.index t (0 : Fin 2) * 5000 + p.val; omega
  | ⟨1, _⟩ => show win1_0.index t (1 : Fin 2) * 64 + 1 * q.val = q.val; omega

/-- The same for the second feature window. -/
theorem rows1 (c : Dev nD) (t : Fin cfg1.N) (p : Fin 5000) (q : Fin 64)
    (e : win1_1.index t (0 : Fin 2) = win1_5.index t (0 : Fin 2)) (e' : win1_1.index t (1 : Fin 2) = 0)
    (hlt : win1_5.index t (0 : Fin 2) < 20) :
    iblk1 V c 1 t (ix2 p q)
      = V c main_v73 (ix2 ⟨win1_5.index t (0 : Fin 2) * 5000 + p.val, by have := p.isLt; omega⟩ q) := by
  show V c main_v73 (((cfg1.win 1).blk t).view.emb (ix2 p q)) = _
  refine congrArg (V c main_v73) (funext fun a => Fin.ext ?_)
  match a with
  | ⟨0, _⟩ => show win1_1.index t (0 : Fin 2) * 5000 + 1 * p.val = win1_5.index t (0 : Fin 2) * 5000 + p.val; omega
  | ⟨1, _⟩ => show win1_1.index t (1 : Fin 2) * 64 + 1 * q.val = q.val; omega

/-- The same for the third feature window. -/
theorem rows2 (c : Dev nD) (t : Fin cfg1.N) (p : Fin 5000) (q : Fin 64)
    (e : win1_2.index t (0 : Fin 2) = win1_5.index t (0 : Fin 2)) (e' : win1_2.index t (1 : Fin 2) = 0)
    (hlt : win1_5.index t (0 : Fin 2) < 20) :
    iblk1 V c 2 t (ix2 p q)
      = V c main_v89 (ix2 ⟨win1_5.index t (0 : Fin 2) * 5000 + p.val, by have := p.isLt; omega⟩ q) := by
  show V c main_v89 (((cfg1.win 2).blk t).view.emb (ix2 p q)) = _
  refine congrArg (V c main_v89) (funext fun a => Fin.ext ?_)
  match a with
  | ⟨0, _⟩ => show win1_2.index t (0 : Fin 2) * 5000 + 1 * p.val = win1_5.index t (0 : Fin 2) * 5000 + p.val; omega
  | ⟨1, _⟩ => show win1_2.index t (1 : Fin 2) * 64 + 1 * q.val = q.val; omega

/-- The weight window's block is the whole weight array. -/
theorem weights (c : Dev nD) (t : Fin cfg1.N) (s : Fin 3) (q : Fin 64) (j : Fin 40)
    (e0 : win1_3.index t (0 : Fin 3) = 0) (e1 : win1_3.index t (1 : Fin 3) = 0) (e2 : win1_3.index t (2 : Fin 3) = 0) :
    iblk1 V c 3 t (ix3 s q j) = V c main_arg4 (ix3 s q j) := by
  show V c main_arg4 (((cfg1.win 3).blk t).view.emb (ix3 s q j)) = _
  refine congrArg (V c main_arg4) (funext fun a => Fin.ext ?_)
  match a with
  | ⟨0, _⟩ => show win1_3.index t (0 : Fin 3) * 3 + 1 * s.val = s.val; omega
  | ⟨1, _⟩ => show win1_3.index t (1 : Fin 3) * 64 + 1 * q.val = q.val; omega
  | ⟨2, _⟩ => show win1_3.index t (2 : Fin 3) * 40 + 1 * j.val = j.val; omega

/-- The bias window's block is the whole bias array. -/
theorem bias (c : Dev nD) (t : Fin cfg1.N) (j : Fin 40) (e0 : win1_4.index t (0 : Fin 1) = 0) :
    iblk1 V c 4 t (ix1 j) = V c main_arg5 (ix1 j) := by
  show V c main_arg5 (((cfg1.win 4).blk t).view.emb (ix1 j)) = _
  refine congrArg (V c main_arg5) (funext fun a => Fin.ext ?_)
  match a with
  | ⟨0, _⟩ => show win1_4.index t (0 : Fin 1) * 40 + 1 * j.val = j.val; omega

/-- WHAT POINT `t` WRITES BACK is block `t` of the layer of the arrays as the region finds them. -/
theorem flushed_eq (c : Dev nD) (t : Fin cfg1.N) :
    (dat1 (F := Ideal) V c).flushed 5 t = ((cfg1.win 5).blk t).view.read (Elt Ideal)
      (logSoftmaxLayer (n := 100000) (d := 64) (k := 40) (V c main_v60) (V c main_v73) (V c main_v89) (V c main_arg4) (V c main_arg5)) := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S40) zeros1]
  obtain ⟨e00, e01, e10, e11, e20, e21, e30, e31, e32, e40, hlt, e51⟩ := index_facts t
  refine funext fun (y : S5000x40.Idx) => ?_
  obtain ⟨p, j, rfl⟩ : ∃ (p : Fin 5000) (j : Fin 40), y = ix2 p j := ⟨y 0, y 1, eq_ix2 y⟩
  have hemb : ((cfg1.win 5).blk t).view.emb (ix2 p j)
      = ix2 (⟨win1_5.index t (0 : Fin 2) * 5000 + p.val, by have := p.isLt; omega⟩ : Fin 100000) j := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 40 + 1 * j.val = j.val; omega
  show k1_pay1 (k1_pay4 (iblk1 V c 0 t) (iblk1 V c 1 t) (iblk1 V c 2 t) (View.ld (iblk1 V c 3 t) r1_1) (View.ld (iblk1 V c 3 t) r1_2)
        (View.ld (iblk1 V c 3 t) r1_3) (iblk1 V c 4 t))
      (k1_pay5 (iblk1 V c 0 t) (iblk1 V c 1 t) (iblk1 V c 2 t) (View.ld (iblk1 V c 3 t) r1_1) (View.ld (iblk1 V c 3 t) r1_2)
        (View.ld (iblk1 V c 3 t) r1_3) (iblk1 V c 4 t)) (ix2 p j)
    = logSoftmaxLayer (n := 100000) (d := 64) (k := 40) (V c main_v60) (V c main_v73) (V c main_v89) (V c main_arg4) (V c main_arg5)
        (((cfg1.win 5).blk t).view.emb (ix2 p j))
  rw [hemb]
  exact point_eq (V c main_v60) (V c main_v73) (V c main_v89) (V c main_arg4) (V c main_arg5)
    (iblk1 V c 0 t) (iblk1 V c 1 t) (iblk1 V c 2 t) (iblk1 V c 3 t) (iblk1 V c 4 t) (win1_5.index t (0 : Fin 2)) hlt
    (fun p q => rows0 V c t p q e00 e01 hlt) (fun p q => rows1 V c t p q e10 e11 hlt) (fun p q => rows2 V c t p q e20 e21 hlt)
    (fun s q j => weights V c t s q j e30 e31 e32) (fun j => bias V c t j e40) p j

/-- An index of the output array is in point `t`'s block iff each coordinate is in the block's range on its axis. -/
theorem mem_block (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v90).slice (win1_5.rect t)).set ↔ _
  rw [View.set_slice_whole, Rect.mem_set_unit]
  exact Iff.rfl

/-- The twenty blocks tile the output's rows: row `r` is in the block of the point whose row block is `r / 5000`. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- THE OUTPUT ARRAY after the region: the log-softmax layer of the five arrays the windows read, as the region found
    them. -/
theorem array_eq (c : Dev nD) :
    (dat1 (F := Ideal) V c).arrAt 5 cfg1.N
      = logSoftmaxLayer (n := 100000) (d := 64) (k := 40) (V c main_v60) (V c main_v73) (V c main_v89) (V c main_arg4) (V c main_arg5) :=
  (dat1 (F := Ideal) V c).arrAt_eq_of_cover 5 _ (fun t _ => flushed_eq V c t) cover

end Cert.ChebNet.Region2

end
-- ==== Proof.KernelStages.lean ====
/-
  The kernel program's host stretches before its first kernel, read one stretch at a time.

  The stretches are: the operations up to the degree count and its two comparisons; the first `where` (the degree, or
  one where it is not positive); the reciprocal square root and a constant; the second `where` (that root, or zero where
  the degree is not positive); and the rest — the edges' coefficients, the propagated features and their second
  Chebyshev term. Each stretch is read over ARBITRARY incoming contents `V`: what it writes is its operations' functions
  of what it reads, and every buffer it does not write keeps its contents. The two `where`s and the root between them
  are read together; they compute `select (deg > 0) (rsqrt (select (deg > 0) deg 1)) 0` from the degree and its two
  comparisons.
-/
import proofs.«113783_j2903397892894_1_alg».proof.Proof.Gen.KernelIdeal.Frame
import Idealize.ShloMosaic.Lib.StableHlo.Run

set_option maxRecDepth 16384

noncomputable section

namespace Cert.ChebNet.KernelStages

open Cert.KernelIdeal Cert.KernelIdeal.Gen
open Idealize.ShloMosaic Idealize.ShloMosaic.TcCoe Idealize.ShloMosaic.StableHlo Idealize.SL.Sem

variable {F : FTy → Type} [FloatOps F] (V : Valuation τ sig (Elt F))

/-- The normalising factor's base `d^(−1/2)` (zero at a node no edge arrives at), from the degree and its comparisons. -/
theorem middle_value :
    StableHlo.after (hostOps0_3 (F := F)) (StableHlo.after hostOps0_2 (StableHlo.after hostOps0_1 V)) (Proc.devRef .tc main_v14)
      = select (V (Proc.devRef .tc main_v9))
          (Host.rsqrt (select (V (Proc.devRef .tc main_v11)) (V (Proc.devRef .tc main_v7))
            (broadcastInDim S100000 ![] bcast_S_S100000 (V (Proc.devRef .tc main_cst_3)))))
          (broadcastInDim S100000 ![] bcast_S_S100000 (constant S_ .f32 0x00000000#32)) := by
  simp only [hostOps0_1, hostOps0_2, hostOps0_3]
  after_results_simp
  rfl

/-- These three stretches leave the edge list's rows and the arguments alone. -/
theorem middle_keeps :
    StableHlo.after (hostOps0_3 (F := F)) (StableHlo.after hostOps0_2 (StableHlo.after hostOps0_1 V)) (Proc.devRef .tc main_v1) = V (Proc.devRef .tc main_v1)
    ∧ StableHlo.after (hostOps0_3 (F := F)) (StableHlo.after hostOps0_2 (StableHlo.after hostOps0_1 V)) (Proc.devRef .tc main_v3) = V (Proc.devRef .tc main_v3)
    ∧ StableHlo.after (hostOps0_3 (F := F)) (StableHlo.after hostOps0_2 (StableHlo.after hostOps0_1 V)) (Proc.devRef .tc main_arg0) = V (Proc.devRef .tc main_arg0)
    ∧ StableHlo.after (hostOps0_3 (F := F)) (StableHlo.after hostOps0_2 (StableHlo.after hostOps0_1 V)) (Proc.devRef .tc main_arg2) = V (Proc.devRef .tc main_arg2)
    ∧ StableHlo.after (hostOps0_3 (F := F)) (StableHlo.after hostOps0_2 (StableHlo.after hostOps0_1 V)) (Proc.devRef .tc main_arg3) = V (Proc.devRef .tc main_arg3)
    ∧ StableHlo.after (hostOps0_3 (F := F)) (StableHlo.after hostOps0_2 (StableHlo.after hostOps0_1 V)) (Proc.devRef .tc main_arg4) = V (Proc.devRef .tc main_arg4)
    ∧ StableHlo.after (hostOps0_3 (F := F)) (StableHlo.after hostOps0_2 (StableHlo.after hostOps0_1 V)) (Proc.devRef .tc main_arg5) = V (Proc.devRef .tc main_arg5) := by
  refine ⟨?_, ?_, ?_, ?_, ?_, ?_, ?_⟩ <;> (simp only [hostOps0_1, hostOps0_2, hostOps0_3]; after_results_simp)

set_option maxHeartbeats 8000000 in
/-- The last stretch leaves the weights and the biases alone. -/
theorem last_keeps :
    StableHlo.after (hostOps0_4 (F := F)) V (Proc.devRef .tc main_arg0) = V (Proc.devRef .tc main_arg0)
    ∧ StableHlo.after (hostOps0_4 (F := F)) V (Proc.devRef .tc main_arg2) = V (Proc.devRef .tc main_arg2)
    ∧ StableHlo.after (hostOps0_4 (F := F)) V (Proc.devRef .tc main_arg3) = V (Proc.devRef .tc main_arg3)
    ∧ StableHlo.after (hostOps0_4 (F := F)) V (Proc.devRef .tc main_arg4) = V (Proc.devRef .tc main_arg4)
    ∧ StableHlo.after (hostOps0_4 (F := F)) V (Proc.devRef .tc main_arg5) = V (Proc.devRef .tc main_arg5)
    ∧ StableHlo.after (hostOps0_4 (F := F)) V (Proc.devRef .tc main_v1) = V (Proc.devRef .tc main_v1)
    ∧ StableHlo.after (hostOps0_4 (F := F)) V (Proc.devRef .tc main_v3) = V (Proc.devRef .tc main_v3) := by
  refine ⟨?_, ?_, ?_, ?_, ?_, ?_, ?_⟩ <;> (simp only [hostOps0_4]; after_results_simp)

end Cert.ChebNet.KernelStages

end
-- ==== Proof.Boundaries.lean ====
/-
  The buffers' contents at the segment boundaries of the idealized kernel program, named by the reference's own stages.

  Both programs run the same host operations on the same arguments: the degree of each node, the symmetric normalisation
  of the edges, and, for a feature matrix `h`, the propagated matrix `L h` (gather the source rows, scale by the edge's
  coefficient, add into the destination rows) and the second Chebyshev term `2·L(L h) − h`. So where the kernel program's
  host stretches compute a buffer, its contents are literally the reference's stage of the same arguments, and nothing
  here looks inside a gather or a scatter. Between the stretches stand the two kernels, whose output arrays are the two
  layers of the arrays they read (the modules on the two regions); the reference's hidden features and result are the
  same layers (the modules on the reference's two layers). Boundary by boundary:
  * entering the first kernel: the features, `L x`, `2·L(L x) − x`, the first weights and bias;
  * leaving it: the hidden features, equal to the reference's;
  * entering the second kernel: the hidden features, `L h`, `2·L(L h) − h`, the second weights and bias;
  * leaving it: the result, equal to the reference's.
-/
import proofs.«113783_j2903397892894_1_alg».proof.Proof.Gen.KernelIdeal.Frame
import proofs.«113783_j2903397892894_1_alg».proof.Proof.RefReadP
import proofs.«113783_j2903397892894_1_alg».proof.Proof.RefLayer1
import proofs.«113783_j2903397892894_1_alg».proof.Proof.RefLayer2
import proofs.«113783_j2903397892894_1_alg».proof.Proof.Region1
import proofs.«113783_j2903397892894_1_alg».proof.Proof.Region2
import proofs.«113783_j2903397892894_1_alg».proof.Proof.KernelStages
import Idealize.ShloMosaic.Lib.StableHlo.Run

set_option maxRecDepth 16384

noncomputable section

namespace Cert.ChebNet.Boundaries

open Cert.KernelIdeal Cert.KernelIdeal.Gen
open Idealize.ShloMosaic Idealize.ShloMosaic.TcCoe Idealize.ShloMosaic.StableHlo Idealize.SL.Sem
open Cert.ReferenceIdeal.ReadP (val_main_v1 val_main_v3 val_main_v7 val_main_v9 val_main_v11 val_main_cst_3 val_main_v14 val_main_v30 val_main_v46 val_main_v66 val_main_v74 val_main_v90 val_main_v110 val_main_v118)

variable (m : (ℓ : Loc nD τ sig) → Buf (Elt Ideal) ℓ) (ρ : Dev nD → PrngReg) (c : Dev nD)

/-! ## After the first stretch: the degree count, its comparisons, the edge list's rows -/

set_option maxHeartbeats 4000000 in
/-- What the first stretch computes is the reference's. -/
theorem first_values :
    W1 m ρ c (Proc.devRef .tc main_v7) = val_main_v7 (F := Ideal) (m ((c : Thread nD τ).loc main_arg1))
    ∧ W1 m ρ c (Proc.devRef .tc main_v9) = val_main_v9 (F := Ideal) (m ((c : Thread nD τ).loc main_arg1))
    ∧ W1 m ρ c (Proc.devRef .tc main_v11) = val_main_v11 (F := Ideal) (m ((c : Thread nD τ).loc main_arg1))
    ∧ W1 m ρ c (Proc.devRef .tc main_cst_3) = val_main_cst_3 (F := Ideal)
    ∧ W1 m ρ c (Proc.devRef .tc main_v1) = val_main_v1 (F := Ideal) (m ((c : Thread nD τ).loc main_arg1))
    ∧ W1 m ρ c (Proc.devRef .tc main_v3) = val_main_v3 (F := Ideal) (m ((c : Thread nD τ).loc main_arg1)) := by
  refine ⟨?_, ?_, ?_, ?_, ?_, ?_⟩ <;>
  · show StableHlo.after hostOps0 (W0 m ρ c) _ = _
    simp only [hostOps0]
    after_results_simp
    rfl

set_option maxHeartbeats 4000000 in
/-- The first stretch writes no argument. -/
theorem first_args :
    W1 m ρ c (Proc.devRef .tc main_arg0) = (m ((c : Thread nD τ).loc main_arg0)) ∧ W1 m ρ c (Proc.devRef .tc main_arg2) = (m ((c : Thread nD τ).loc main_arg2)) ∧ W1 m ρ c (Proc.devRef .tc main_arg3) = (m ((c : Thread nD τ).loc main_arg3))
    ∧ W1 m ρ c (Proc.devRef .tc main_arg4) = (m ((c : Thread nD τ).loc main_arg4)) ∧ W1 m ρ c (Proc.devRef .tc main_arg5) = (m ((c : Thread nD τ).loc main_arg5)) := by
  refine ⟨?_, ?_, ?_, ?_, ?_⟩ <;>
  · show StableHlo.after hostOps0 (W0 m ρ c) _ = _
    simp only [hostOps0]
    after_results_simp
    try rfl

/-! ## After the two `where`s: the normalising factor's base -/

/-- `d^(−1/2)`, zero where no edge arrives, is the reference's. -/
theorem base_value : W4 m ρ c (Proc.devRef .tc main_v14) = val_main_v14 (F := Ideal) (m ((c : Thread nD τ).loc main_arg1)) := by
  refine (Cert.ChebNet.KernelStages.middle_value (W1 m ρ c)).trans ?_
  rw [(first_values m ρ c).1, (first_values m ρ c).2.1, (first_values m ρ c).2.2.1, (first_values m ρ c).2.2.2.1]
  rfl

/-- The edge list's rows and the arguments, carried through. -/
theorem base_keeps :
    W4 m ρ c (Proc.devRef .tc main_v1) = val_main_v1 (F := Ideal) (m ((c : Thread nD τ).loc main_arg1)) ∧ W4 m ρ c (Proc.devRef .tc main_v3) = val_main_v3 (F := Ideal) (m ((c : Thread nD τ).loc main_arg1))
    ∧ W4 m ρ c (Proc.devRef .tc main_arg0) = (m ((c : Thread nD τ).loc main_arg0)) ∧ W4 m ρ c (Proc.devRef .tc main_arg2) = (m ((c : Thread nD τ).loc main_arg2)) ∧ W4 m ρ c (Proc.devRef .tc main_arg3) = (m ((c : Thread nD τ).loc main_arg3))
    ∧ W4 m ρ c (Proc.devRef .tc main_arg4) = (m ((c : Thread nD τ).loc main_arg4)) ∧ W4 m ρ c (Proc.devRef .tc main_arg5) = (m ((c : Thread nD τ).loc main_arg5)) := by
  have k := Cert.ChebNet.KernelStages.middle_keeps (W1 m ρ c)
  exact ⟨k.1.trans (first_values m ρ c).2.2.2.2.1, k.2.1.trans (first_values m ρ c).2.2.2.2.2,
    k.2.2.1.trans (first_args m ρ c).1, k.2.2.2.1.trans (first_args m ρ c).2.1, k.2.2.2.2.1.trans (first_args m ρ c).2.2.1,
    k.2.2.2.2.2.1.trans (first_args m ρ c).2.2.2.1, k.2.2.2.2.2.2.trans (first_args m ρ c).2.2.2.2⟩

/-! ## The last stretch before the first kernel, over any incoming contents -/

set_option maxHeartbeats 4000000 in
/-- From the base, the edge list's rows and the features: the edges' coefficients, the propagated features and their
    second Chebyshev term are the reference's stages of the same arrays. -/
theorem last_stretch (V4 : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (h14 : V4 (Proc.devRef .tc main_v14) = val_main_v14 (F := Ideal) x1) (h1 : V4 (Proc.devRef .tc main_v1) = val_main_v1 (F := Ideal) x1)
    (h3 : V4 (Proc.devRef .tc main_v3) = val_main_v3 (F := Ideal) x1) (h0 : V4 (Proc.devRef .tc main_arg0) = x0) :
    StableHlo.after hostOps0_4 V4 (Proc.devRef .tc main_v30) = val_main_v30 (F := Ideal) x1
    ∧ StableHlo.after hostOps0_4 V4 (Proc.devRef .tc main_v43) = val_main_v46 (F := Ideal) x0 x1
    ∧ StableHlo.after hostOps0_4 V4 (Proc.devRef .tc main_v59) = val_main_v66 (F := Ideal) x0 x1 := by
  refine ⟨?_, ?_, ?_⟩ <;>
  · simp only [hostOps0_4]
    after_results_simp
    simp only [h14, h1, h3, h0]
    rfl

/-! ## Entering the first kernel -/

/-- The arguments are as launched. -/
theorem entry1_args :
    W5 m ρ c (Proc.devRef .tc main_arg0) = (m ((c : Thread nD τ).loc main_arg0)) ∧ W5 m ρ c (Proc.devRef .tc main_arg2) = (m ((c : Thread nD τ).loc main_arg2))
    ∧ W5 m ρ c (Proc.devRef .tc main_arg3) = (m ((c : Thread nD τ).loc main_arg3)) ∧ W5 m ρ c (Proc.devRef .tc main_arg4) = (m ((c : Thread nD τ).loc main_arg4))
    ∧ W5 m ρ c (Proc.devRef .tc main_arg5) = (m ((c : Thread nD τ).loc main_arg5)) := by
  have k := Cert.ChebNet.KernelStages.last_keeps (W4 m ρ c)
  have b := base_keeps m ρ c
  exact ⟨k.1.trans b.2.2.1, k.2.1.trans b.2.2.2.1, k.2.2.1.trans b.2.2.2.2.1, k.2.2.2.1.trans b.2.2.2.2.2.1,
    k.2.2.2.2.1.trans b.2.2.2.2.2.2⟩

/-- The edge list's two rows and the edges' coefficients are the reference's. -/
theorem entry1_edges :
    W5 m ρ c (Proc.devRef .tc main_v1) = val_main_v1 (F := Ideal) (m ((c : Thread nD τ).loc main_arg1))
    ∧ W5 m ρ c (Proc.devRef .tc main_v3) = val_main_v3 (F := Ideal) (m ((c : Thread nD τ).loc main_arg1))
    ∧ W5 m ρ c (Proc.devRef .tc main_v30) = val_main_v30 (F := Ideal) (m ((c : Thread nD τ).loc main_arg1)) := by
  have k := Cert.ChebNet.KernelStages.last_keeps (W4 m ρ c)
  have b := base_keeps m ρ c
  exact ⟨k.2.2.2.2.2.1.trans b.1, k.2.2.2.2.2.2.trans b.2.1,
    (last_stretch (W4 m ρ c) _ _ (base_value m ρ c) b.1 b.2.1 b.2.2.1).1⟩

/-- The once-propagated features are the reference's. -/
theorem entry1_prop :
    W5 m ρ c (Proc.devRef .tc main_v43) = val_main_v46 (F := Ideal) (m ((c : Thread nD τ).loc main_arg0)) (m ((c : Thread nD τ).loc main_arg1)) :=
  (last_stretch (W4 m ρ c) _ _ (base_value m ρ c) (base_keeps m ρ c).1 (base_keeps m ρ c).2.1 (base_keeps m ρ c).2.2.1).2.1

/-- The second Chebyshev term of the features is the reference's. -/
theorem entry1_cheb :
    W5 m ρ c (Proc.devRef .tc main_v59) = val_main_v66 (F := Ideal) (m ((c : Thread nD τ).loc main_arg0)) (m ((c : Thread nD τ).loc main_arg1)) :=
  (last_stretch (W4 m ρ c) _ _ (base_value m ρ c) (base_keeps m ρ c).1 (base_keeps m ρ c).2.1 (base_keeps m ρ c).2.2.1).2.2

/-! ## Leaving the first kernel -/

/-- The hidden features the first kernel leaves are the reference's. -/
theorem exit1_hidden :
    W6 m ρ c (Proc.devRef .tc main_v60)
      = val_main_v74 (F := Ideal) (m ((c : Thread nD τ).loc main_arg0)) (m ((c : Thread nD τ).loc main_arg1)) (m ((c : Thread nD τ).loc main_arg2)) (m ((c : Thread nD τ).loc main_arg3)) := by
  refine (W6_arr m ρ c 5).trans ((Cert.ChebNet.Region1.array_eq (V5 m ρ) c).trans ?_)
  show Cert.ChebNet.reluLayer (n := 100000) (d := 128) (k := 64) (W5 m ρ c (Proc.devRef .tc main_arg0)) (W5 m ρ c (Proc.devRef .tc main_v43))
    (W5 m ρ c (Proc.devRef .tc main_v59)) (W5 m ρ c (Proc.devRef .tc main_arg2)) (W5 m ρ c (Proc.devRef .tc main_arg3)) = _
  rw [(entry1_args m ρ c).1, (entry1_args m ρ c).2.1, (entry1_args m ρ c).2.2.1, entry1_prop, entry1_cheb]
  exact (Cert.ChebNet.Ref.layer1 _ _ _ _).symm

/-! ## Entering the second kernel -/

set_option maxHeartbeats 4000000 in
/-- The hidden features, untouched by the host stretch between the kernels. -/
theorem entry2_hidden :
    W7 m ρ c (Proc.devRef .tc main_v60) = val_main_v74 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) _ = _
  simp only [hostOps1]
  after_results_simp
  exact exit1_hidden m ρ c

set_option maxHeartbeats 4000000 in
/-- The second weights and bias, as launched. -/
theorem entry2_args :
    W7 m ρ c (Proc.devRef .tc main_arg4) = (m ((c : Thread nD τ).loc main_arg4)) ∧ W7 m ρ c (Proc.devRef .tc main_arg5) = (m ((c : Thread nD τ).loc main_arg5)) := by
  refine ⟨?_, ?_⟩
  · show StableHlo.after hostOps1 (W6 m ρ c) _ = _
    simp only [hostOps1]
    after_results_simp
    exact (W6_of_ne m ρ c main_arg4 (by decide)).trans (entry1_args m ρ c).2.2.2.1
  · show StableHlo.after hostOps1 (W6 m ρ c) _ = _
    simp only [hostOps1]
    after_results_simp
    exact (W6_of_ne m ρ c main_arg5 (by decide)).trans (entry1_args m ρ c).2.2.2.2

set_option maxHeartbeats 4000000 in
/-- The once-propagated hidden features are the reference's. -/
theorem entry2_prop :
    W7 m ρ c (Proc.devRef .tc main_v73) = val_main_v90 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) _ = _
  simp only [hostOps1]
  after_results_simp
  rw [exit1_hidden, W6_of_ne m ρ c main_v30 (by decide), W6_of_ne m ρ c main_v1 (by decide), W6_of_ne m ρ c main_v3 (by decide),
    (entry1_edges m ρ c).1, (entry1_edges m ρ c).2.1, (entry1_edges m ρ c).2.2]
  rfl

set_option maxHeartbeats 4000000 in
/-- The second Chebyshev term of the hidden features is the reference's. -/
theorem entry2_cheb :
    W7 m ρ c (Proc.devRef .tc main_v89) = val_main_v110 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) _ = _
  simp only [hostOps1]
  after_results_simp
  rw [exit1_hidden, W6_of_ne m ρ c main_v30 (by decide), W6_of_ne m ρ c main_v1 (by decide), W6_of_ne m ρ c main_v3 (by decide),
    (entry1_edges m ρ c).1, (entry1_edges m ρ c).2.1, (entry1_edges m ρ c).2.2]
  rfl

/-! ## Leaving the second kernel -/

/-- The result the second kernel leaves is the reference's result of the same arguments. -/
theorem exit2_result :
    W8 m ρ c (Proc.devRef .tc main_v90)
      = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((Cert.ChebNet.Region2.array_eq (V7 m ρ) c).trans ?_)
  show Cert.ChebNet.logSoftmaxLayer (n := 100000) (d := 64) (k := 40) (W7 m ρ c (Proc.devRef .tc main_v60)) (W7 m ρ c (Proc.devRef .tc main_v73))
    (W7 m ρ c (Proc.devRef .tc main_v89)) (W7 m ρ c (Proc.devRef .tc main_arg4)) (W7 m ρ c (Proc.devRef .tc main_arg5)) = _
  rw [entry2_hidden, entry2_prop, entry2_cheb, (entry2_args m ρ c).1, (entry2_args m ρ c).2]
  exact (Cert.ChebNet.Ref.layer2 _ _ _ _ _ _).symm

end Cert.ChebNet.Boundaries

end
-- ==== Proof.lean ====
/-
  A two-layer Chebyshev graph network (three taps per layer) as two fused TPU kernels, against its plain jax reference:
  the kernel program and the reference compute the same result on the extended reals.

  Both programs start from node features `x : [100000, 128]`, an edge list `[2, 1600000]`, weights `W1 : [3, 128, 64]`,
  `W2 : [3, 64, 40]` and biases. Both count each node's incoming edges, form the symmetric normalisation
  `−d(src)^(−1/2)·d(dst)^(−1/2)` of every edge, and propagate a feature matrix `h` along the edges to `L h`; the
  Chebyshev terms of a layer's input are `h`, `L h`, `2·L(L h) − h`. These host operations are the same text in both
  programs. The reference then multiplies each term by its `[d, k]` weight slice over all 100000 rows, adds the three
  products left to right and the bias, and applies `relu` (layer one) or a row-wise log-softmax (layer two). The kernel
  program does that dense part in a kernel per layer, twenty blocks of 5000 rows each: it narrows the operands to bf16
  before each product, which on the extended reals is the identity, and otherwise performs the same additions in the
  same order; a row of a block is a row of the array, and the softmax's maximum and sum run along a row, so tiling the
  rows changes nothing. No algebraic law beyond that is used, and the inputs' finiteness is never needed.

  The pieces: `Spec` (the two layers as functions of their dense inputs, entry by entry); `RefLayer1`, `RefLayer2` (the
  reference's two layers are those functions); `Body1`, `Body2` (the kernels' bodies at an entry of a block);
  `Region1`, `Region2` (each kernel's output array is the layer of the arrays it reads); `KernelStages` and
  `Boundaries` (the kernel program's host stretches, and the buffers at the segment boundaries named by the reference's
  stages); `KernelRun` (the kernel program's run with its result named); `RefStages` and `RefRun` (the reference's 163
  operations read in six stretches, and its run read back through its stages). `RefRunP` and `RefReadP` hold the
  reference's operation list and its stages read at an index.
-/
import proofs.«113783_j2903397892894_1_alg».proof.Defs
import proofs.«113783_j2903397892894_1_alg».proof.Proof.Gen.Kernel
import proofs.«113783_j2903397892894_1_alg».proof.Proof.Gen.Kernel.Skeleton
import proofs.«113783_j2903397892894_1_alg».proof.Proof.Gen.Kernel.Launch
import proofs.«113783_j2903397892894_1_alg».proof.Proof.Gen.Kernel.Points
import proofs.«113783_j2903397892894_1_alg».proof.Proof.Gen.Kernel.Frame
import proofs.«113783_j2903397892894_1_alg».proof.Proof.Gen.KernelIdeal
import proofs.«113783_j2903397892894_1_alg».proof.Proof.Gen.KernelIdeal.Skeleton
import proofs.«113783_j2903397892894_1_alg».proof.Proof.Gen.KernelIdeal.Launch
import proofs.«113783_j2903397892894_1_alg».proof.Proof.Gen.KernelIdeal.Points
import proofs.«113783_j2903397892894_1_alg».proof.Proof.Gen.KernelIdeal.Frame
import proofs.«113783_j2903397892894_1_alg».proof.Proof.Gen.ReferenceIdeal
import proofs.«113783_j2903397892894_1_alg».proof.Proof.Gen.Pre_finite_inputs
import proofs.«113783_j2903397892894_1_alg».proof.Proof.RefRunP
import proofs.«113783_j2903397892894_1_alg».proof.Proof.RefReadP
import proofs.«113783_j2903397892894_1_alg».proof.Proof.RefRun
import proofs.«113783_j2903397892894_1_alg».proof.Proof.KernelRun
import proofs.«113783_j2903397892894_1_alg».proof.Proof.Boundaries
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ChebNet.RefRun.run m ρ)

/-- The ideal pass rewrote no operation of the kernel program. -/
theorem preserves : Cert.preserves_Kernel_KernelIdeal := trivial

/-- From memories agreeing on the six arguments, both idealized programs end with the reference's result stage of
    those arguments in their result buffers. -/
theorem algebraic : Cert.algebraic_KernelIdeal_ReferenceIdeal := by
  intro m ρ m' ρ' _ hagree
  refine ⟨fun c => Cert.ReferenceIdeal.ReadP.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.ChebNet.Boundaries.exit2_result m ρ c), (h c).2⟩)
      (Cert.ChebNet.KernelRun.run_named (F := Ideal) m ρ)
  · refine (θ_run Cert.ReferenceIdeal.defs _ _).mono (fun _ h c => ⟨(h c).1.trans ?_, (h c).2⟩)
      (Cert.ChebNet.RefRun.run m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
